-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S2x512x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S62x512x256 : Shape := ⟨3, ![62, 512, 256]⟩
abbrev S62x512 : Shape := ⟨2, ![62, 512]⟩
abbrev S_ : Shape := ⟨0, ![]⟩

class Facts : Prop where
  bcast_S_S62x512x256 : S_.BroadcastsInDim S62x512x256 (![] : Fin 0 → Fin S62x512x256.rank)
  reducesTo_S62x512x256_S_d0_1_2 : S62x512x256.ReducesTo [0, 1, 2] S_
  h_S_ : 0 < S_.numel

variable [Facts]

def fn {F : FTy → Type} [FloatOps F] (main_arg0 : FVec F S62x512x256 .f32) (main_arg1 : IVec S62x512 32) : IVec S_ 1 :=
  let main_v0 : FVec F S62x512x256 .f32 := Host.absf main_arg0
  let main_cst : FVec F S_ .f32 := constant S_ .f32 0x7F800000#32
  let main_v1 : FVec F S62x512x256 .f32 := broadcastInDim S62x512x256 ![] bcast_S_S62x512x256 main_cst
  let main_v2 : IVec S62x512x256 1 := cmpf .olt main_v0 main_v1
  let main_c : IVec S_ 1 := constantI S_ 1 1#1
  let main_v3 : IVec S_ 1 := (fun x v => Host.reduce IntOp.andi x v reducesTo_S62x512x256_S_d0_1_2 h_S_) main_v2 main_c
  main_v3
-- ==== Kernel.lean ====
abbrev S62x512x256 : Shape := ⟨3, ![62, 512, 256]⟩
abbrev S62x512 : Shape := ⟨2, ![62, 512]⟩
abbrev S62x1x512 : Shape := ⟨3, ![62, 1, 512]⟩
abbrev S62x1x1 : Shape := ⟨3, ![62, 1, 1]⟩
abbrev S2x512x256 : Shape := ⟨3, ![2, 512, 256]⟩
abbrev S2x1x512 : Shape := ⟨3, ![2, 1, 512]⟩
abbrev S2x1x1 : Shape := ⟨3, ![2, 1, 1]⟩
abbrev S2x512x512 : Shape := ⟨3, ![2, 512, 512]⟩
abbrev S2x512 : Shape := ⟨2, ![2, 512]⟩
abbrev S2x512x1 : Shape := ⟨3, ![2, 512, 1]⟩
abbrev S2x1 : Shape := ⟨2, ![2, 1]⟩
abbrev S62 : Shape := ⟨1, ![62]⟩

abbrev nBuf : Space → Nat
  | .hbm => 7
  | .vmem => 8
  | .smem => 0
  | _ => 0

abbrev bufTy : (tb : Table) → Fin (tcTables nBuf tb) → BufTy
  | .hbm, ⟨0, _⟩ => ⟨S62x512x256, .f32⟩
  | .hbm, ⟨1, _⟩ => ⟨S62x512, .i32⟩
  | .hbm, ⟨2, _⟩ => ⟨S62x1x512, .i32⟩
  | .hbm, ⟨3, _⟩ => ⟨S62x1x1, .f32⟩
  | .hbm, ⟨4, _⟩ => ⟨S62x1x1, .f32⟩
  | .hbm, ⟨5, _⟩ => ⟨S62, .f32⟩
  | .hbm, ⟨6, _⟩ => ⟨S62, .f32⟩
  | .local _ .vmem, ⟨0, _⟩ => ⟨S2x512x256, .f32⟩
  | .local _ .vmem, ⟨1, _⟩ => ⟨S2x512x256, .f32⟩
  | .local _ .vmem, ⟨2, _⟩ => ⟨S2x1x512, .i32⟩
  | .local _ .vmem, ⟨3, _⟩ => ⟨S2x1x512, .i32⟩
  | .local _ .vmem, ⟨4, _⟩ => ⟨S2x1x1, .f32⟩
  | .local _ .vmem, ⟨5, _⟩ => ⟨S2x1x1, .f32⟩
  | .local _ .vmem, ⟨6, _⟩ => ⟨S2x1x1, .f32⟩
  | .local _ .vmem, ⟨7, _⟩ => ⟨S2x1x1, .f32⟩
  | _, _ => ⟨S62x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![31], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S62x512_S62x1x512 : S62x512.ShapeCasts S62x1x512
  inb_S2x512x256_S2x512x256_0_0_0 : ∀ a, (![0, 0, 0] : Fin 3 → Nat) a + S2x512x256.size a ≤ S2x512x256.size a
  h_S2x512x256 : 0 < S2x512x256.numel
  bitsLt_bf16_f32 : FTy.bits .bf16 < FTy.bits .f32
  reduces_S2x512x256_S2x512 : S2x512x256.Reduces [2] S2x512
  shapeCasts_S2x512_S2x512x1 : S2x512.ShapeCasts S2x512x1
  transposes_S2x512x1_p0_2_1_S2x1x512 : S2x512x1.Transposes [0, 2, 1] S2x1x512
  broadcasts_S2x512x1_S2x512x512 : S2x512x1.Broadcasts S2x512x512
  broadcasts_S2x1x512_S2x512x512 : S2x1x512.Broadcasts S2x512x512
  reduces_S2x512x512_S2x512 : S2x512x512.Reduces [2] S2x512
  reduces_S2x512x1_S2x1 : S2x512x1.Reduces [1] S2x1
  shapeCasts_S2x1_S2x1x1 : S2x1.ShapeCasts S2x1x1
  inb_S2x1x512_S2x1x512_0_0_0 : ∀ a, (![0, 0, 0] : Fin 3 → Nat) a + S2x1x512.size a ≤ S2x1x512.size a
  h_S2x1x512 : 0 < S2x1x512.numel
  shapeCasts_S2x1x512_S2x1x512 : S2x1x512.ShapeCasts S2x1x512
  transposes_S2x1x512_p0_2_1_S2x512x1 : S2x1x512.Transposes [0, 2, 1] S2x512x1
  inb_S2x1x1_S2x1x1_0_0_0 : ∀ a, (![0, 0, 0] : Fin 3 → Nat) a + S2x1x1.size a ≤ S2x1x1.size a
  h_S2x1x1 : 0 < S2x1x1.numel
  shapeCasts_S62x1x1_S62 : S62x1x1.ShapeCasts S62
  dot_S2x512x256_S2x512x256_S2x512x512_2_2_1_1_0_0_wf : DotDims.WF S2x512x256 S2x512x256 S2x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x256.size a ≤ S62x512x256.size a
  hwx0_0 : ∀ i : grid0.Coords, EltTy.bits .f32 = 32 ∨ (Rect.block (s := S62x512x256) S2x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1x512.size a ≤ S62x1x512.size a
  hwx0_1 : ∀ i : grid0.Coords, EltTy.bits .i32 = 32 ∨ (Rect.block (s := S62x1x512) S2x1x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1x1.size a ≤ S62x1x1.size a
  hwx0_2 : ∀ i : grid0.Coords, EltTy.bits .f32 = 32 ∨ (Rect.block (s := S62x1x1) S2x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x1x1.size a ≤ S62x1x1.size a
  hwx0_3 : ∀ i : grid0.Coords, EltTy.bits .f32 = 32 ∨ (Rect.block (s := S62x1x1) S2x1x1.size (cc0_transform_3 i) (hinb0_3 i)).WholeWords (EltTy.packing .f32)

variable [Facts₀]

def dot_S2x512x256_S2x512x256_S2x512x512_2_2_1_1_0_0 : DotDims S2x512x256 S2x512x256 S2x512x512 where
  lhsContracting := [2]
  rhsContracting := [2]
  lhsNonContracting := [1]
  rhsNonContracting := [1]
  lhsBatch := [0]
  rhsBatch := [0]
  wf := dot_S2x512x256_S2x512x256_S2x512x512_2_2_1_1_0_0_wf

abbrev win0_0 : Pipeline.Window sig grid0 :=
  Pipeline.Window.ofSpec (Memref.whole main_arg0) S2x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S2x1x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S2x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S62x512x256 : Shape := ⟨3, ![62, 512, 256]⟩
abbrev S62x512 : Shape := ⟨2, ![62, 512]⟩
abbrev S_ : Shape := ⟨0, ![]⟩
abbrev S62x512x512 : Shape := ⟨3, ![62, 512, 512]⟩
abbrev S62x512x1 : Shape := ⟨3, ![62, 512, 1]⟩
abbrev S62x1x512 : Shape := ⟨3, ![62, 1, 512]⟩
abbrev S62 : Shape := ⟨1, ![62]⟩

abbrev nBuf : Space → Nat
  | .hbm => 64
  | .vmem => 0
  | .smem => 0
  | _ => 0

abbrev bufTy : (tb : Table) → Fin (tcTables nBuf tb) → BufTy
  | .hbm, ⟨0, _⟩ => ⟨S62x512x256, .f32⟩
  | .hbm, ⟨1, _⟩ => ⟨S62x512, .i32⟩
  | .hbm, ⟨2, _⟩ => ⟨S62x512x256, .f32⟩
  | .hbm, ⟨3, _⟩ => ⟨S_, .f32⟩
  | .hbm, ⟨4, _⟩ => ⟨S62x512, .f32⟩
  | .hbm, ⟨5, _⟩ => ⟨S62x512x512, .f32⟩
  | .hbm, ⟨6, _⟩ => ⟨S62x512x1, .f32⟩
  | .hbm, ⟨7, _⟩ => ⟨S62x1x512, .f32⟩
  | .hbm, ⟨8, _⟩ => ⟨S62x512x512, .f32⟩
  | .hbm, ⟨9, _⟩ => ⟨S62x512x512, .f32⟩
  | .hbm, ⟨10, _⟩ => ⟨S62x512x512, .f32⟩
  | .hbm, ⟨11, _⟩ => ⟨S_, .f32⟩
  | .hbm, ⟨12, _⟩ => ⟨S62x512x512, .f32⟩
  | .hbm, ⟨13, _⟩ => ⟨S62x512x512, .f32⟩
  | .hbm, ⟨14, _⟩ => ⟨S62x512x512, .f32⟩
  | .hbm, ⟨15, _⟩ => ⟨S_, .f32⟩
  | .hbm, ⟨16, _⟩ => ⟨S62x512x512, .f32⟩
  | .hbm, ⟨17, _⟩ => ⟨S62x512x512, .f32⟩
  | .hbm, ⟨18, _⟩ => ⟨S_, .f32⟩
  | .hbm, ⟨19, _⟩ => ⟨S62x512x512, .f32⟩
  | .hbm, ⟨20, _⟩ => ⟨S62x512x512, .i1⟩
  | .hbm, ⟨21, _⟩ => ⟨S_, .f32⟩
  | .hbm, ⟨22, _⟩ => ⟨S_, .f32⟩
  | .hbm, ⟨23, _⟩ => ⟨S62x512x512, .f32⟩
  | .hbm, ⟨24, _⟩ => ⟨S62x512x512, .f32⟩
  | .hbm, ⟨25, _⟩ => ⟨S62x512x512, .f32⟩
  | .hbm, ⟨26, _⟩ => ⟨S_, .f32⟩
  | .hbm, ⟨27, _⟩ => ⟨S_, .f32⟩
  | .hbm, ⟨28, _⟩ => ⟨S62x512x512, .f32⟩
  | .hbm, ⟨29, _⟩ => ⟨S62x512x512, .f32⟩
  | .hbm, ⟨30, _⟩ => ⟨S_, .f32⟩
  | .hbm, ⟨31, _⟩ => ⟨S62, .f32⟩
  | .hbm, ⟨32, _⟩ => ⟨S_, .f32⟩
  | .hbm, ⟨33, _⟩ => ⟨S62, .f32⟩
  | .hbm, ⟨34, _⟩ => ⟨S62, .f32⟩
  | .hbm, ⟨35, _⟩ => ⟨S62x512x1, .i32⟩
  | .hbm, ⟨36, _⟩ => ⟨S62x1x512, .i32⟩
  | .hbm, ⟨37, _⟩ => ⟨S62x512x512, .i32⟩
  | .hbm, ⟨38, _⟩ => ⟨S62x512x512, .i32⟩
  | .hbm, ⟨39, _⟩ => ⟨S62x512x512, .i1⟩
  | .hbm, ⟨40, _⟩ => ⟨S_, .f32⟩
  | .hbm, ⟨41, _⟩ => ⟨S_, .f32⟩
  | .hbm, ⟨42, _⟩ => ⟨S62x512x512, .f32⟩
  | .hbm, ⟨43, _⟩ => ⟨S62x512x512, .f32⟩
  | .hbm, ⟨44, _⟩ => ⟨S_, .f32⟩
  | .hbm, ⟨45, _⟩ => ⟨S62x512, .f32⟩
  | .hbm, ⟨46, _⟩ => ⟨S_, .f32⟩
  | .hbm, ⟨47, _⟩ => ⟨S_, .f32⟩
  | .hbm, ⟨48, _⟩ => ⟨S62x512x512, .f32⟩
  | .hbm, ⟨49, _⟩ => ⟨S62x512x512, .f32⟩
  | .hbm, ⟨50, _⟩ => ⟨S_, .f32⟩
  | .hbm, ⟨51, _⟩ => ⟨S62x512, .f32⟩
  | .hbm, ⟨52, _⟩ => ⟨S_, .f32⟩
  | .hbm, ⟨53, _⟩ => ⟨S62x512, .f32⟩
  | .hbm, ⟨54, _⟩ => ⟨S62x512, .f32⟩
  | .hbm, ⟨55, _⟩ => ⟨S62x512, .f32⟩
  | .hbm, ⟨56, _⟩ => ⟨S_, .f32⟩
  | .hbm, ⟨57, _⟩ => ⟨S62x512, .f32⟩
  | .hbm, ⟨58, _⟩ => ⟨S62x512, .f32⟩
  | .hbm, ⟨59, _⟩ => ⟨S_, .f32⟩
  | .hbm, ⟨60, _⟩ => ⟨S62, .f32⟩
  | .hbm, ⟨61, _⟩ => ⟨S_, .f32⟩
  | .hbm, ⟨62, _⟩ => ⟨S62, .f32⟩
  | .hbm, ⟨63, _⟩ => ⟨S62, .f32⟩
  | _, _ => ⟨S62x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_7 : Ref sig .tc := ⟨.hbm, 40, rfl⟩
abbrev main_call2_v0 : Ref sig .tc := ⟨.hbm, 41, rfl⟩
abbrev main_call2_v1 : Ref sig .tc := ⟨.hbm, 42, rfl⟩
abbrev main_v26 : Ref sig .tc := ⟨.hbm, 43, rfl⟩
abbrev main_cst_8 : Ref sig .tc := ⟨.hbm, 44, rfl⟩
abbrev main_v27 : Ref sig .tc := ⟨.hbm, 45, rfl⟩
abbrev main_cst_9 : Ref sig .tc := ⟨.hbm, 46, rfl⟩
abbrev main_call3_v0 : Ref sig .tc := ⟨.hbm, 47, rfl⟩
abbrev main_call3_v1 : Ref sig .tc := ⟨.hbm, 48, rfl⟩
abbrev main_v28 : Ref sig .tc := ⟨.hbm, 49, rfl⟩
abbrev main_cst_10 : Ref sig .tc := ⟨.hbm, 50, rfl⟩
abbrev main_v29 : Ref sig .tc := ⟨.hbm, 51, rfl⟩
abbrev main_cst_11 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call4_cst : Ref sig .tc := ⟨.hbm, 56, rfl⟩
abbrev main_call4_v0 : Ref sig .tc := ⟨.hbm, 57, rfl⟩
abbrev main_v33 : Ref sig .tc := ⟨.hbm, 58, rfl⟩
abbrev main_cst_12 : Ref sig .tc := ⟨.hbm, 59, rfl⟩
abbrev main_v34 : Ref sig .tc := ⟨.hbm, 60, rfl⟩
abbrev main_cst_13 : Ref sig .tc := ⟨.hbm, 61, rfl⟩
abbrev main_v35 : Ref sig .tc := ⟨.hbm, 62, rfl⟩
abbrev main_v36 : Ref sig .tc := ⟨.hbm, 63, rfl⟩

abbrev nD : Nat := 1
abbrev τ : Topo := Topo.v7x

variable {F : FTy → Type} [FloatOps F]

class Facts₀ : Prop where
  reducesTo_S62x512x256_S62x512_d2 : S62x512x256.ReducesTo [2] S62x512
  h_S_ : 0 < S_.numel
  bcast_S62x512_S62x512x1_0_1 : S62x512.BroadcastsInDim S62x512x1 (![0, 1] : Fin 2 → Fin S62x512x1.rank)
  bcast_S62x512_S62x1x512_0_2 : S62x512.BroadcastsInDim S62x1x512 (![0, 2] : Fin 2 → Fin S62x1x512.rank)
  bcast_S62x512x1_S62x512x512_0_1_2 : S62x512x1.BroadcastsInDim S62x512x512 (![0, 1, 2] : Fin 3 → Fin S62x512x512.rank)
  bcast_S62x1x512_S62x512x512_0_1_2 : S62x1x512.BroadcastsInDim S62x512x512 (![0, 1, 2] : Fin 3 → Fin S62x512x512.rank)
  bcast_S_S62x512x512 : S_.BroadcastsInDim S62x512x512 (![] : Fin 0 → Fin S62x512x512.rank)
  reducesTo_S62x512x512_S62_d1_2 : S62x512x512.ReducesTo [1, 2] S62
  bcast_S_S62 : S_.BroadcastsInDim S62 (![] : Fin 0 → Fin S62.rank)
  reducesTo_S62x512x512_S62x512_d2 : S62x512x512.ReducesTo [2] S62x512
  bcast_S_S62x512 : S_.BroadcastsInDim S62x512 (![] : Fin 0 → Fin S62x512.rank)
  reducesTo_S62x512_S62_d1 : S62x512.ReducesTo [1] S62
  dot_S62x512x256_S62x512x256_S62x512x512_2_2_1_1_0_0_wf : DotDims.WF S62x512x256 S62x512x256 S62x512x512 [2] [2] [1] [1] [0] [0]

variable [Facts₀]

def dot_S62x512x256_S62x512x256_S62x512x512_2_2_1_1_0_0 : DotDims S62x512x256 S62x512x256 S62x512x512 where
  lhsContracting := [2]
  rhsContracting := [2]
  lhsNonContracting := [1]
  rhsNonContracting := [1]
  lhsBatch := [0]
  rhsBatch := [0]
  wf := dot_S62x512x256_S62x512x256_S62x512x512_2_2_1_1_0_0_wf

class Facts : Prop extends Facts₀ where

variable [Facts]
-- ==== Proof.TripletSpec.lean ====
/-
  The triplet loss of one part, as plain mathematics on the extended reals.

  A part is 512 samples of 256 coordinates, `x i d`, with an integer label `l i` per sample.
  * `sqNorm x i = Σ_d x i d · x i d` and `gram x i j = Σ_d x i d · x j d`;
  * the squared distance `sqDist x i j = (sqNorm x i + sqNorm x j) - 2 · gram x i j`;
  * the distance `dist x i j = rootPos (sqDist x i j)`, where `rootPos d` is `√d` when `d > 0` and `0` otherwise
    (the root is taken of `d` where `d > 0` and of `1` elsewhere, so that it is never taken of a negative number);
  * `distMean x = (Σ_i Σ_j dist x i j) / 512²`;
  * the hardest positive `hardPos x l i = max_j (dist x i j if l i = l j else -∞)` and the hardest negative
    `hardNeg x l i = min_j (+∞ if l i = l j else dist x i j)`;
  * `loss x l i = max (0.2 + hardPos - hardNeg) 0` and `lossMean x l = (Σ_i loss x l i) / 512`.
  Every float literal is kept as the word both programs print, so that no literal is ever evaluated except zero.
  The two results of the whole computation are these two means for each of the 62 parts (`lossAll`, `meanAll`).

  Two laws are proved here. `rootPos_max`: clamping at zero first changes nothing, `rootPos (max d 0) = rootPos d`
  (if `d > 0` then `max d 0 = d`; otherwise `max d 0 = 0`, which is not above zero, and both sides are `0`).
  `sum_pairs`: a sum over the pairs `(i, j)` is the sum over `i` of the sums over `j`.
-/
import Idealize.ShloMosaic.PureOps.Ideal
import Idealize.ShloMosaic.PureOps.Ideal.Laws
import Idealize.ShloMosaic.Lib.ValueIdx

noncomputable section

namespace Cert.Triplet

open Idealize.ShloMosaic

/-- One part's features: sample, coordinate. -/
abbrev Feat := Fin 512 → Fin 256 → EReal
/-- One part's labels. -/
abbrev Labels := Fin 512 → BitVec 32

/-- The squared norm of sample `i`. -/
def sqNorm (x : Feat) (i : Fin 512) : EReal := ∑ d : Fin 256, x i d * x i d

/-- The inner product of samples `i` and `j`. -/
def gram (x : Feat) (i j : Fin 512) : EReal := ∑ d : Fin 256, x i d * x j d

/-- The squared distance between samples `i` and `j`: `|x_i|² + |x_j|² - 2 ⟨x_i, x_j⟩`. -/
def sqDist (x : Feat) (i j : Fin 512) : EReal :=
  sqNorm x i + sqNorm x j - Ideal.ofBits .f32 0x40000000#32 * gram x i j

/-- `√d` where `d > 0`, else `0`; the root's argument is `1` where `d ≤ 0`. -/
def rootPos (d : EReal) : EReal :=
  Scalar.select (Ideal.cmp .ogt d (Ideal.ofBits .f32 0x00000000#32))
    (Ideal.sqrt (Scalar.select (Ideal.cmp .ogt d (Ideal.ofBits .f32 0x00000000#32)) d (Ideal.ofBits .f32 0x3F800000#32)))
    (Ideal.ofBits .f32 0x00000000#32)

/-- The distance between samples `i` and `j`. -/
def dist (x : Feat) (i j : Fin 512) : EReal := rootPos (sqDist x i j)

/-- The mean of all 512² distances. -/
def distMean (x : Feat) : EReal :=
  Ideal.div (∑ i : Fin 512, ∑ j : Fin 512, dist x i j) (Ideal.ofBits .f32 0x48800000#32)

/-- Whether samples `i` and `j` carry the same label, as a one-bit word. -/
def same (l : Labels) (i j : Fin 512) : BitVec 1 := IntOp.cmpi .eq (l i) (l j)

/-- The largest distance from sample `i` to a sample of its own label (`-∞` stands for the others). -/
def hardPos (x : Feat) (l : Labels) (i : Fin 512) : EReal :=
  (Finset.univ : Finset (Fin 512)).fold max (Ideal.ofBits .f32 0xFF800000#32)
    (fun j => Scalar.select (same l i j) (dist x i j) (Ideal.ofBits .f32 0xFF800000#32))

/-- The smallest distance from sample `i` to a sample of another label (`+∞` stands for its own). -/
def hardNeg (x : Feat) (l : Labels) (i : Fin 512) : EReal :=
  (Finset.univ : Finset (Fin 512)).fold min (Ideal.ofBits .f32 0x7F800000#32)
    (fun j => Scalar.select (same l i j) (Ideal.ofBits .f32 0x7F800000#32) (dist x i j))

/-- The hinge of sample `i`: `max (margin + hardest positive - hardest negative) 0`. -/
def loss (x : Feat) (l : Labels) (i : Fin 512) : EReal :=
  max (Ideal.ofBits .f32 0x3E4CCCCD#32 + hardPos x l i - hardNeg x l i) (Ideal.ofBits .f32 0x00000000#32)

/-- The mean hinge over the part's samples. -/
def lossMean (x : Feat) (l : Labels) : EReal :=
  Ideal.div (∑ i : Fin 512, loss x l i) (Ideal.ofBits .f32 0x44000000#32)

/-! ## The whole arrays: 62 parts -/

/-- Part `n` of the feature array `[62, 512, 256]`. -/
abbrev featM (a : (⟨3, ![62, 512, 256]⟩ : Shape).Idx → EReal) (n : Fin 62) : Feat := fun i d => a (ValueIdx.ix3 n i d)

/-- Part `n` of the label array `[62, 512]`. -/
abbrev labM (l : (⟨2, ![62, 512]⟩ : Shape).Idx → BitVec 32) (n : Fin 62) : Labels := fun i => l (ValueIdx.ix2 n i)

/-- The first result: each part's mean hinge. -/
def lossAll (a : (⟨3, ![62, 512, 256]⟩ : Shape).Idx → EReal) (l : (⟨2, ![62, 512]⟩ : Shape).Idx → BitVec 32) :
    (⟨1, ![62]⟩ : Shape).Idx → EReal := fun o => lossMean (featM a (o 0)) (labM l (o 0))

/-- The second result: each part's mean distance. -/
def meanAll (a : (⟨3, ![62, 512, 256]⟩ : Shape).Idx → EReal) : (⟨1, ![62]⟩ : Shape).Idx → EReal :=
  fun o => distMean (featM a (o 0))

/-! ## The two laws -/

/-- Clamping the squared distance at zero before the guarded root changes nothing. -/
theorem rootPos_max (d : EReal) : rootPos (max d (Ideal.ofBits .f32 0x00000000#32)) = rootPos d := by
  unfold rootPos
  rw [Ideal.ofBits_zero_f32]
  by_cases h : (0 : EReal) < d
  · rw [max_eq_left h.le]
  · rw [max_eq_right (not_lt.mp h)]
    simp [Ideal.cmp, Scalar.select, h]

/-- A sum over pairs is an iterated sum. -/
theorem sum_pairs {M : Type*} [AddCommMonoid M] (f : Fin 512 → Fin 512 → M) :
    ∑ p : Fin 512 × Fin 512, f p.1 p.2 = ∑ i : Fin 512, ∑ j : Fin 512, f i j :=
  Fintype.sum_prod_type' f

end Cert.Triplet

end
-- ==== Proof.TripletOps.lean ====
/-
  The kernel body's layout operations and reductions read at an index, over this kernel's literal block shapes:
  a block of two parts with 512 samples each.

  Layout: appending a unit axis (`[2,512] → [2,512,1]`, `[2,1] → [2,1,1]`) keeps the entry of the same leading
  coordinates; swapping the last two axes of a column `[2,512,1]` or a row `[2,1,512]` swaps the two coordinates;
  broadcasting a column `[2,512,1]` to `[2,512,512]` reads the column at the row's coordinate, and broadcasting a row
  `[2,1,512]` reads it at the column's coordinate.

  Reductions on the extended reals: a sum over the last axis (of extent 256 or 512) or over the middle axis is the plain
  finite sum over that axis's coordinate; a maximum (minimum) over the last axis is the fold of `max` (`min`) over that
  coordinate, started at the accumulator's value.
-/
import Idealize.ShloMosaic.Lib.Pipeline.Value
import Idealize.ShloMosaic.Lib.ValueIdx
import Idealize.ShloMosaic.PureOps.Ideal.Laws

noncomputable section

namespace Cert.Triplet.Ops

open Idealize.ShloMosaic Idealize.ShloMosaic.ValueIdx

/-- Two parts' features. -/
abbrev T256 : Shape := ⟨3, ![2, 512, 256]⟩
/-- Two parts' sample-by-sample matrices. -/
abbrev T512 : Shape := ⟨3, ![2, 512, 512]⟩
/-- One value per sample, as a column. -/
abbrev Col : Shape := ⟨3, ![2, 512, 1]⟩
/-- One value per sample, as a row. -/
abbrev Row : Shape := ⟨3, ![2, 1, 512]⟩
/-- One value per sample. -/
abbrev Mat : Shape := ⟨2, ![2, 512]⟩
/-- One value per part. -/
abbrev Pt2 : Shape := ⟨2, ![2, 1]⟩
/-- One value per part, with two unit axes. -/
abbrev Pt3 : Shape := ⟨3, ![2, 1, 1]⟩

variable {α : Type}

/-! ## Layout operations -/

/-- `[2,512] → [2,512,1]`: the column's entry `(b, i, 0)` is the entry `(b, i)`. -/
theorem cast_col (v : Mat.Idx → α) (h : Mat.ShapeCasts Col) (b : Fin 2) (i : Fin 512) :
    shapeCast Col v h (ix3 b i (0 : Fin 1)) = v (ix2 b i) :=
  shapeCast_apply v h _ _ (by rw [Shape.rowMajor_val_two, Shape.rowMajor_val_three]; simp)

/-- `[2,1] → [2,1,1]`: the entry `(b, 0, 0)` is the entry `(b, 0)`. -/
theorem cast_pt (v : Pt2.Idx → α) (h : Pt2.ShapeCasts Pt3) (b : Fin 2) :
    shapeCast Pt3 v h (ix3 b (0 : Fin 1) (0 : Fin 1)) = v (ix2 b (0 : Fin 1)) :=
  shapeCast_apply v h _ _ (by rw [Shape.rowMajor_val_two, Shape.rowMajor_val_three]; simp)

/-- A column turned into a row: the row's entry `(b, 0, j)` is the column's `(b, j, 0)`. -/
theorem transpose_col (v : Col.Idx → α) (h : Col.Transposes [0, 2, 1] Row) (b : Fin 2) (j : Fin 512) :
    transpose Row [0, 2, 1] v h (ix3 b (0 : Fin 1) j) = v (ix3 b j (0 : Fin 1)) :=
  transpose_apply _ v h _ _ (fun a => by match a with | ⟨0, _⟩ => rfl | ⟨1, _⟩ => rfl | ⟨2, _⟩ => rfl)

/-- A row turned into a column: the column's entry `(b, i, 0)` is the row's `(b, 0, i)`. -/
theorem transpose_row (v : Row.Idx → α) (h : Row.Transposes [0, 2, 1] Col) (b : Fin 2) (i : Fin 512) :
    transpose Col [0, 2, 1] v h (ix3 b i (0 : Fin 1)) = v (ix3 b (0 : Fin 1) i) :=
  transpose_apply _ v h _ _ (fun a => by match a with | ⟨0, _⟩ => rfl | ⟨1, _⟩ => rfl | ⟨2, _⟩ => rfl)

/-- A column broadcast along the last axis: entry `(b, i, j)` is the column's `(b, i, 0)`. -/
theorem bcast_col (v : Col.Idx → α) (h : Col.Broadcasts T512) (b : Fin 2) (i j : Fin 512) :
    broadcastTo T512 v h (ix3 b i j) = v (ix3 b i (0 : Fin 1)) :=
  broadcastTo_apply v h _ _ (fun a => by match a with | ⟨0, _⟩ => rfl | ⟨1, _⟩ => rfl | ⟨2, _⟩ => rfl)

/-- A row broadcast along the middle axis: entry `(b, i, j)` is the row's `(b, 0, j)`. -/
theorem bcast_row (v : Row.Idx → α) (h : Row.Broadcasts T512) (b : Fin 2) (i j : Fin 512) :
    broadcastTo T512 v h (ix3 b i j) = v (ix3 b (0 : Fin 1) j) :=
  broadcastTo_apply v h _ _ (fun a => by match a with | ⟨0, _⟩ => rfl | ⟨1, _⟩ => rfl | ⟨2, _⟩ => rfl)

/-! ## Reductions over one axis, on the extended reals -/

theorem sum_last256 (src : FVec Ideal T256 .f32) (h : T256.Reduces [2] Mat) (hφ : FKind.Formats .f32)
    (hacc : (0x00000000#32 : BitVec 32) = FKind.add.neutral .f32 hφ) (b : Fin 2) (i : Fin 512) :
    multiReduction .add [2] Mat src 0x00000000#32 h hφ hacc (ix2 b i) = ∑ d : Fin 256, src (ix3 b i d) :=
  (Ideal.multiReduction_add_single src _ h hφ hacc (ix2 b i)).trans
    (Finset.sum_congr rfl fun k _ => congrArg src (funext fun a => Fin.ext (by
      match a with | ⟨0, _⟩ => rfl | ⟨1, _⟩ => rfl | ⟨2, _⟩ => rfl)))

theorem sum_last512 (src : FVec Ideal T512 .f32) (h : T512.Reduces [2] Mat) (hφ : FKind.Formats .f32)
    (hacc : (0x00000000#32 : BitVec 32) = FKind.add.neutral .f32 hφ) (b : Fin 2) (i : Fin 512) :
    multiReduction .add [2] Mat src 0x00000000#32 h hφ hacc (ix2 b i) = ∑ j : Fin 512, src (ix3 b i j) :=
  (Ideal.multiReduction_add_single src _ h hφ hacc (ix2 b i)).trans
    (Finset.sum_congr rfl fun k _ => congrArg src (funext fun a => Fin.ext (by
      match a with | ⟨0, _⟩ => rfl | ⟨1, _⟩ => rfl | ⟨2, _⟩ => rfl)))

theorem sum_mid512 (src : FVec Ideal Col .f32) (h : Col.Reduces [1] Pt2) (hφ : FKind.Formats .f32)
    (hacc : (0x00000000#32 : BitVec 32) = FKind.add.neutral .f32 hφ) (b : Fin 2) :
    multiReduction .add [1] Pt2 src 0x00000000#32 h hφ hacc (ix2 b (0 : Fin 1)) = ∑ i : Fin 512, src (ix3 b i (0 : Fin 1)) :=
  (Ideal.multiReduction_add_single src _ h hφ hacc (ix2 b (0 : Fin 1))).trans
    (Finset.sum_congr rfl fun k _ => congrArg src (funext fun a => Fin.ext (by
      match a with | ⟨0, _⟩ => rfl | ⟨1, _⟩ => rfl | ⟨2, _⟩ => rfl)))

theorem max_last512 (src : FVec Ideal T512 .f32) (h : T512.Reduces [2] Mat) (hφ : FKind.Formats .f32)
    (hacc : (0xFF800000#32 : BitVec 32) = FKind.maximumf.neutral .f32 hφ) (b : Fin 2) (i : Fin 512) :
    multiReduction .maximumf [2] Mat src 0xFF800000#32 h hφ hacc (ix2 b i)
      = (Finset.univ : Finset (Fin 512)).fold max (Ideal.ofBits .f32 0xFF800000#32) (fun j => src (ix3 b i j)) :=
  (Ideal.multiReduction_maximumf_single src _ h hφ hacc (ix2 b i)).trans
    (congrArg (Finset.fold max (Ideal.ofBits .f32 0xFF800000#32) · Finset.univ) (funext fun k => congrArg src (funext fun a => Fin.ext (by
      match a with | ⟨0, _⟩ => rfl | ⟨1, _⟩ => rfl | ⟨2, _⟩ => rfl))))

theorem min_last512 (src : FVec Ideal T512 .f32) (h : T512.Reduces [2] Mat) (hφ : FKind.Formats .f32)
    (hacc : (0x7F800000#32 : BitVec 32) = FKind.minimumf.neutral .f32 hφ) (b : Fin 2) (i : Fin 512) :
    multiReduction .minimumf [2] Mat src 0x7F800000#32 h hφ hacc (ix2 b i)
      = (Finset.univ : Finset (Fin 512)).fold min (Ideal.ofBits .f32 0x7F800000#32) (fun j => src (ix3 b i j)) :=
  (multiReduction_minimumf_eq_fold src _ h hφ hacc (ix2 b i)).trans
    ((h.fold_filter_drop_single FloatOps.minimumf (FloatOps.ofBits .f32 0x7F800000#32) src (ix2 b i)).trans
      (congrArg (Finset.fold min (Ideal.ofBits .f32 0x7F800000#32) · Finset.univ) (funext fun k => congrArg src (funext fun a => Fin.ext (by
        match a with | ⟨0, _⟩ => rfl | ⟨1, _⟩ => rfl | ⟨2, _⟩ => rfl)))))

end Cert.Triplet.Ops

end
-- ==== Proof.KernelPay.lean ====
/-
  What one grid point of the kernel computes, read index by index on the extended reals.

  The body works on a block of two parts. Its values are named here one by one, in the body's own order:
  the column of squared norms (`sqCol`), the squared distances (`d2`), the guarded roots (`distB`), the label mask
  (`sameB`), the hardest positive as a column (`hpCol`), the hardest negative (`hnMat`), the block's mean distance
  (`meanB`) and its mean hinge (`lossB`). Each printed payload IS the corresponding term (`pay*_eq`, by unfolding),
  and each term read at part `b` of the block is the specification's function of that part's features
  `x (b, ·, ·)` and labels `l (b, 0, ·)`:
  * a change of float format is the identity here, so the matrix product of the rounded block with itself, into a zero
    accumulator, is the sum over the coordinate of the products — the inner product `gram`;
  * the row sum of squares is `sqNorm`; broadcast as a column it is read at the row's sample, transposed and broadcast
    as a row at the column's sample, which gives `sqDist`, and the two selects around the root are `rootPos`;
  * the sum over columns and then over rows, divided by 512², is `distMean`; the maximum and the minimum over columns
    of the masked distances are `hardPos` and `hardNeg`; the hinge summed over rows and divided by 512 is `lossMean`.
-/
import proofs.«148909_j13563506720994_2_alg».proof.Proof.Gen.KernelIdeal.Skeleton
import proofs.«148909_j13563506720994_2_alg».proof.Proof.TripletSpec
import proofs.«148909_j13563506720994_2_alg».proof.Proof.TripletOps

noncomputable section

namespace Cert.KernelIdeal.Pay

open Idealize.ShloMosaic Idealize.ShloMosaic.ValueIdx
open Cert.KernelIdeal Cert.KernelIdeal.Gen Cert.Triplet Cert.Triplet.Ops

/-- Part `b` of a block of features. -/
abbrev part (x : FVec Ideal S2x512x256 .f32) (b : Fin 2) : Feat := fun i d => x (ix3 b i d)
/-- Part `b` of a block of labels. -/
abbrev labs (l : IVec S2x1x512 32) (b : Fin 2) : Labels := fun i => l (ix3 b (0 : Fin 1) i)

/-- The matrix product's dimension record: batch axis 0, rows axis 1, contraction over axis 2 of both operands. -/
abbrev DD : DotDims S2x512x256 S2x512x256 S2x512x512 := dot_S2x512x256_S2x512x256_S2x512x512_2_2_1_1_0_0

/-! ## The product of a block with itself -/

theorem lhs0 (o : S2x512x512.Idx) (q : DD.contr.Idx) : (DD.lhsIdx o q 0).val = (o 0).val := by
  unfold DotDims.lhsIdx
  rw [dif_pos (show (0 : Fin S2x512x256.rank) ∈ DD.lhsBatch by decide)]
  rfl
theorem lhs1 (o : S2x512x512.Idx) (q : DD.contr.Idx) : (DD.lhsIdx o q 1).val = (o 1).val := by
  unfold DotDims.lhsIdx
  rw [dif_neg (show ¬(1 : Fin S2x512x256.rank) ∈ DD.lhsBatch by decide), dif_pos (show (1 : Fin S2x512x256.rank) ∈ DD.lhsNonContracting by decide)]
  rfl
theorem lhs2 (o : S2x512x512.Idx) (q : DD.contr.Idx) : (DD.lhsIdx o q 2).val = (q ⟨0, by decide⟩).val :=
  DD.lhsIdx_val_of_single rfl o q
theorem rhs0 (o : S2x512x512.Idx) (q : DD.contr.Idx) : (DD.rhsIdx o q 0).val = (o 0).val := by
  unfold DotDims.rhsIdx
  rw [dif_pos (show (0 : Fin S2x512x256.rank) ∈ DD.rhsBatch by decide)]
  rfl
theorem rhs1 (o : S2x512x512.Idx) (q : DD.contr.Idx) : (DD.rhsIdx o q 1).val = (o 2).val := by
  unfold DotDims.rhsIdx
  rw [dif_neg (show ¬(1 : Fin S2x512x256.rank) ∈ DD.rhsBatch by decide), dif_pos (show (1 : Fin S2x512x256.rank) ∈ DD.rhsNonContracting by decide)]
  rfl
theorem rhs2 (o : S2x512x512.Idx) (q : DD.contr.Idx) : (DD.rhsIdx o q 2).val = (q ⟨0, by decide⟩).val :=
  DD.rhsIdx_val_of_single rfl o q

/-- The batched product into a zero accumulator, at `(b, i, j)`: the sum over the coordinate `k` of the left operand at
    `(b, i, k)` times the right at `(b, j, k)`. -/
theorem matmul_apply3 (l r : FVec Ideal S2x512x256 .bf16) (b : Fin 2) (i j : Fin 512) :
    matmul DD none l r (constant (F := Ideal) S2x512x512 .f32 0x00000000#32) (ix3 b i j)
      = ∑ k : Fin 256, l (ix3 b i k) * r (ix3 b j k) := by
  refine (Ideal.matmul_constant_zero_apply DD none l r (ix3 b i j)).trans ?_
  rw [← Equiv.sum_comp (contrEquiv1 DD 256 rfl rfl).symm]
  refine Finset.sum_congr rfl fun k _ => ?_
  have hk := contrEquiv1_symm_val DD 256 rfl rfl k
  have el : DD.lhsIdx (ix3 b i j) ((contrEquiv1 DD 256 rfl rfl).symm k) = ix3 b i k := funext fun a => Fin.ext (by
    match a with
    | ⟨0, _⟩ => exact lhs0 _ _
    | ⟨1, _⟩ => exact lhs1 _ _
    | ⟨2, _⟩ => exact (lhs2 _ _).trans hk)
  have er : DD.rhsIdx (ix3 b i j) ((contrEquiv1 DD 256 rfl rfl).symm k) = ix3 b j k := funext fun a => Fin.ext (by
    match a with
    | ⟨0, _⟩ => exact rhs0 _ _
    | ⟨1, _⟩ => exact rhs1 _ _
    | ⟨2, _⟩ => exact (rhs2 _ _).trans hk)
  rw [el, er]

/-! ## The body's values, named -/

/-- The squared norms of the block's samples, as a column. -/
def sqCol (x : FVec Ideal S2x512x256 .f32) : FVec Ideal S2x512x1 .f32 :=
  shapeCast S2x512x1 (multiReduction .add [2] S2x512 (mulf x x) 0x00000000#32 reduces_S2x512x256_S2x512 (.inl rfl) rfl) shapeCasts_S2x512_S2x512x1

/-- The squared distances between the samples of each part. -/
def d2 (x : FVec Ideal S2x512x256 .f32) : FVec Ideal S2x512x512 .f32 :=
  subf (addf (broadcastTo S2x512x512 (sqCol x) broadcasts_S2x512x1_S2x512x512)
      (broadcastTo S2x512x512 (transpose S2x1x512 [0, 2, 1] (sqCol x) transposes_S2x512x1_p0_2_1_S2x1x512) broadcasts_S2x1x512_S2x512x512))
    (mulf (broadcast S2x512x512 (Scalar.ofBits (F := Ideal) .f32 0x40000000#32))
      (matmul DD none (truncf .bf16 x bitsLt_bf16_f32) (truncf .bf16 x bitsLt_bf16_f32) (constant (F := Ideal) S2x512x512 .f32 0x00000000#32)))

/-- The distances: the root where the squared distance is positive, zero elsewhere. -/
def distB (x : FVec Ideal S2x512x256 .f32) : FVec Ideal S2x512x512 .f32 :=
  select (cmpf .ogt (d2 x) (broadcast S2x512x512 (Scalar.ofBits (F := Ideal) .f32 0x00000000#32)))
    (sqrt (select (cmpf .ogt (d2 x) (broadcast S2x512x512 (Scalar.ofBits (F := Ideal) .f32 0x00000000#32))) (d2 x)
      (broadcast S2x512x512 (Scalar.ofBits (F := Ideal) .f32 0x3F800000#32))))
    (broadcast S2x512x512 (Scalar.ofBits (F := Ideal) .f32 0x00000000#32))

/-- The block's mean distances. -/
def meanB (x : FVec Ideal S2x512x256 .f32) : FVec Ideal S2x1x1 .f32 :=
  divf (shapeCast S2x1x1 (multiReduction .add [1] S2x1
      (shapeCast S2x512x1 (multiReduction .add [2] S2x512 (distB x) 0x00000000#32 reduces_S2x512x512_S2x512 (.inl rfl) rfl) shapeCasts_S2x512_S2x512x1)
      0x00000000#32 reduces_S2x512x1_S2x1 (.inl rfl) rfl) shapeCasts_S2x1_S2x1x1)
    (broadcast S2x1x1 (Scalar.ofBits (F := Ideal) .f32 0x48800000#32))

/-- Which pairs of samples carry the same label. -/
def sameB (l : IVec S2x1x512 32) : IVec S2x512x512 1 :=
  cmpi .eq (broadcastTo S2x512x512 (transpose S2x512x1 [0, 2, 1] (shapeCast S2x1x512 l shapeCasts_S2x1x512_S2x1x512) transposes_S2x1x512_p0_2_1_S2x512x1) broadcasts_S2x512x1_S2x512x512)
    (broadcastTo S2x512x512 (shapeCast S2x1x512 l shapeCasts_S2x1x512_S2x1x512) broadcasts_S2x1x512_S2x512x512)

/-- The hardest positive of each sample, as a column. -/
def hpCol (x : FVec Ideal S2x512x256 .f32) (l : IVec S2x1x512 32) : FVec Ideal S2x512x1 .f32 :=
  shapeCast S2x512x1 (multiReduction .maximumf [2] S2x512
      (select (sameB l) (distB x) (broadcast S2x512x512 (Scalar.ofBits (F := Ideal) .f32 0xFF800000#32)))
      0xFF800000#32 reduces_S2x512x512_S2x512 (.inl rfl) rfl) shapeCasts_S2x512_S2x512x1

/-- The hardest negative of each sample. -/
def hnMat (x : FVec Ideal S2x512x256 .f32) (l : IVec S2x1x512 32) : FVec Ideal S2x512 .f32 :=
  multiReduction .minimumf [2] S2x512
    (select (sameB l) (broadcast S2x512x512 (Scalar.ofBits (F := Ideal) .f32 0x7F800000#32)) (distB x))
    0x7F800000#32 reduces_S2x512x512_S2x512 (.inl rfl) rfl

/-- The block's mean hinges, from the hardest positives and negatives. -/
def lossB (hp : FVec Ideal S2x512x1 .f32) (hn : FVec Ideal S2x512 .f32) : FVec Ideal S2x1x1 .f32 :=
  divf (shapeCast S2x1x1 (multiReduction .add [1] S2x1
      (maximumf (subf (addf (broadcast S2x512x1 (Scalar.ofBits (F := Ideal) .f32 0x3E4CCCCD#32)) hp) (shapeCast S2x512x1 hn shapeCasts_S2x512_S2x512x1))
        (broadcast S2x512x1 (Scalar.ofBits (F := Ideal) .f32 0x00000000#32)))
      0x00000000#32 reduces_S2x512x1_S2x1 (.inl rfl) rfl) shapeCasts_S2x1_S2x1x1)
    (broadcast S2x1x1 (Scalar.ofBits (F := Ideal) .f32 0x44000000#32))

/-! ## The printed payloads are these terms -/

theorem pay2_eq (x : FVec Ideal S2x512x256 .f32) : k0_pay2 (F := Ideal) x = distB x := rfl
theorem pay3_eq (x : FVec Ideal S2x512x256 .f32) : k0_pay3 (F := Ideal) x = meanB x := rfl
theorem pay4_eq (l : IVec S2x1x512 32) : k0_pay4 (F := Ideal) l = sameB l := rfl
theorem pay5_eq (x : FVec Ideal S2x512x256 .f32) (l : IVec S2x1x512 32) : k0_pay5 (F := Ideal) x l = hpCol x l := rfl
theorem pay6_eq (x : FVec Ideal S2x512x256 .f32) (l : IVec S2x1x512 32) : k0_pay6 (F := Ideal) x l = hnMat x l := rfl
theorem pay1_eq (hp : FVec Ideal S2x512x1 .f32) (hn : FVec Ideal S2x512 .f32) : k0_pay1 (F := Ideal) hp hn = lossB hp hn := rfl

/-! ## Each term at an index -/

theorem sqCol_apply (x : FVec Ideal S2x512x256 .f32) (b : Fin 2) (i : Fin 512) :
    sqCol x (ix3 b i (0 : Fin 1)) = sqNorm (part x b) i :=
  (cast_col _ _ b i).trans (sum_last256 (mulf x x) _ _ _ b i)

theorem d2_apply (x : FVec Ideal S2x512x256 .f32) (b : Fin 2) (i j : Fin 512) :
    d2 x (ix3 b i j) = sqDist (part x b) i j := by
  have e1 : broadcastTo S2x512x512 (sqCol x) broadcasts_S2x512x1_S2x512x512 (ix3 b i j) = sqNorm (part x b) i :=
    (bcast_col _ _ b i j).trans (sqCol_apply x b i)
  have e2 : broadcastTo S2x512x512 (transpose S2x1x512 [0, 2, 1] (sqCol x) transposes_S2x512x1_p0_2_1_S2x1x512) broadcasts_S2x1x512_S2x512x512 (ix3 b i j)
      = sqNorm (part x b) j :=
    (bcast_row _ _ b i j).trans ((transpose_col _ _ b j).trans (sqCol_apply x b j))
  have e3 : matmul DD none (truncf .bf16 x bitsLt_bf16_f32) (truncf .bf16 x bitsLt_bf16_f32) (constant (F := Ideal) S2x512x512 .f32 0x00000000#32) (ix3 b i j)
      = gram (part x b) i j := matmul_apply3 _ _ b i j
  unfold d2 sqDist
  rw [subf_apply, addf_apply, mulf_apply, e1, e2, e3]
  rfl

theorem distB_apply (x : FVec Ideal S2x512x256 .f32) (b : Fin 2) (i j : Fin 512) :
    distB x (ix3 b i j) = dist (part x b) i j := by
  show rootPos (d2 x (ix3 b i j)) = rootPos (sqDist (part x b) i j)
  rw [d2_apply]

theorem meanB_apply (x : FVec Ideal S2x512x256 .f32) (b : Fin 2) :
    meanB x (ix3 b (0 : Fin 1) (0 : Fin 1)) = distMean (part x b) := by
  have e : ∀ i : Fin 512, shapeCast S2x512x1 (multiReduction .add [2] S2x512 (distB x) 0x00000000#32 reduces_S2x512x512_S2x512 (.inl rfl) rfl) shapeCasts_S2x512_S2x512x1 (ix3 b i (0 : Fin 1))
      = ∑ j : Fin 512, dist (part x b) i j := fun i =>
    (cast_col _ _ b i).trans ((sum_last512 (distB x) _ _ _ b i).trans (Finset.sum_congr rfl fun j _ => distB_apply x b i j))
  unfold meanB distMean
  rw [divf_apply]
  refine congrArg₂ Ideal.div ?_ rfl
  exact (cast_pt _ _ b).trans ((sum_mid512 _ _ _ _ b).trans (Finset.sum_congr rfl fun i _ => e i))

theorem sameB_apply (l : IVec S2x1x512 32) (b : Fin 2) (i j : Fin 512) :
    sameB l (ix3 b i j) = same (labs l b) i j := by
  have e1 : broadcastTo S2x512x512 (transpose S2x512x1 [0, 2, 1] (shapeCast S2x1x512 l shapeCasts_S2x1x512_S2x1x512) transposes_S2x1x512_p0_2_1_S2x512x1) broadcasts_S2x512x1_S2x512x512 (ix3 b i j)
      = l (ix3 b (0 : Fin 1) i) :=
    (bcast_col _ _ b i j).trans ((transpose_row _ _ b i).trans (congrFun (shapeCast_self l _) _))
  have e2 : broadcastTo S2x512x512 (shapeCast S2x1x512 l shapeCasts_S2x1x512_S2x1x512) broadcasts_S2x1x512_S2x512x512 (ix3 b i j)
      = l (ix3 b (0 : Fin 1) j) :=
    (bcast_row _ _ b i j).trans (congrFun (shapeCast_self l _) _)
  show IntOp.cmpi .eq _ _ = IntOp.cmpi .eq _ _
  rw [e1, e2]

theorem hpCol_apply (x : FVec Ideal S2x512x256 .f32) (l : IVec S2x1x512 32) (b : Fin 2) (i : Fin 512) :
    hpCol x l (ix3 b i (0 : Fin 1)) = hardPos (part x b) (labs l b) i := by
  refine (cast_col _ _ b i).trans ((max_last512 _ _ _ _ b i).trans ?_)
  unfold hardPos
  refine congrArg (Finset.fold max (Ideal.ofBits .f32 0xFF800000#32) · Finset.univ) (funext fun j => ?_)
  show Scalar.select (sameB l (ix3 b i j)) (distB x (ix3 b i j)) _ = _
  rw [sameB_apply, distB_apply]
  rfl

theorem hnMat_apply (x : FVec Ideal S2x512x256 .f32) (l : IVec S2x1x512 32) (b : Fin 2) (i : Fin 512) :
    hnMat x l (ix2 b i) = hardNeg (part x b) (labs l b) i := by
  refine (min_last512 _ _ _ _ b i).trans ?_
  unfold hardNeg
  refine congrArg (Finset.fold min (Ideal.ofBits .f32 0x7F800000#32) · Finset.univ) (funext fun j => ?_)
  show Scalar.select (sameB l (ix3 b i j)) _ (distB x (ix3 b i j)) = _
  rw [sameB_apply, distB_apply]
  rfl

theorem lossB_apply (x : FVec Ideal S2x512x256 .f32) (l : IVec S2x1x512 32) (b : Fin 2) :
    lossB (hpCol x l) (hnMat x l) (ix3 b (0 : Fin 1) (0 : Fin 1)) = lossMean (part x b) (labs l b) := by
  have e : ∀ i : Fin 512,
      maximumf (subf (addf (broadcast S2x512x1 (Scalar.ofBits (F := Ideal) .f32 0x3E4CCCCD#32)) (hpCol x l)) (shapeCast S2x512x1 (hnMat x l) shapeCasts_S2x512_S2x512x1))
        (broadcast S2x512x1 (Scalar.ofBits (F := Ideal) .f32 0x00000000#32)) (ix3 b i (0 : Fin 1))
      = loss (part x b) (labs l b) i := fun i => by
    have eh : shapeCast S2x512x1 (hnMat x l) shapeCasts_S2x512_S2x512x1 (ix3 b i (0 : Fin 1)) = hardNeg (part x b) (labs l b) i :=
      (cast_col _ _ b i).trans (hnMat_apply x l b i)
    rw [maximumf_apply, subf_apply, addf_apply, hpCol_apply, eh]
    rfl
  unfold lossB lossMean
  rw [divf_apply]
  refine congrArg₂ Ideal.div ?_ rfl
  exact (cast_pt _ _ b).trans ((sum_mid512 _ _ _ _ b).trans (Finset.sum_congr rfl fun i _ => e i))

/-! ## The two stored values of a grid point -/

/-- The value stored to the first output's block, at part `b`: that part's mean hinge. -/
theorem stored_loss (x : FVec Ideal S2x512x256 .f32) (l : IVec S2x1x512 32) (b : Fin 2) :
    k0_pay1 (F := Ideal) (k0_pay5 (F := Ideal) x l) (k0_pay6 (F := Ideal) x l) (ix3 b (0 : Fin 1) (0 : Fin 1))
      = lossMean (part x b) (labs l b) := by
  rw [pay5_eq, pay6_eq, pay1_eq]
  exact lossB_apply x l b

/-- The value stored to the second output's block, at part `b`: that part's mean distance. -/
theorem stored_mean (x : FVec Ideal S2x512x256 .f32) (b : Fin 2) :
    k0_pay3 (F := Ideal) x (ix3 b (0 : Fin 1) (0 : Fin 1)) = distMean (part x b) := by
  rw [pay3_eq]
  exact meanB_apply x b

/-- An index of a `[2,1,1]` block is its part's coordinate followed by two zeros. -/
theorem eq_part (y : S2x1x1.Idx) : y = ix3 (y 0) (0 : Fin 1) (0 : Fin 1) :=
  funext fun a => Fin.ext (by
    match a with
    | ⟨0, _⟩ => rfl
    | ⟨1, _⟩ => have h : (y 1).val < 1 := (y 1).isLt; show (y 1).val = 0; omega
    | ⟨2, _⟩ => have h : (y 2).val < 1 := (y 2).isLt; show (y 2).val = 0; omega)

/-- The first output's stored value at any index of its block. -/
theorem loss_at (x : FVec Ideal S2x512x256 .f32) (l : IVec S2x1x512 32) (y : S2x1x1.Idx) :
    k0_pay1 (F := Ideal) (k0_pay5 (F := Ideal) x l) (k0_pay6 (F := Ideal) x l) y = lossMean (part x (y 0)) (labs l (y 0)) :=
  (congrArg (k0_pay1 (F := Ideal) (k0_pay5 (F := Ideal) x l) (k0_pay6 (F := Ideal) x l)) (eq_part y)).trans (stored_loss x l (y 0))

/-- The second output's stored value at any index of its block. -/
theorem mean_at (x : FVec Ideal S2x512x256 .f32) (y : S2x1x1.Idx) :
    k0_pay3 (F := Ideal) x y = distMean (part x (y 0)) :=
  (congrArg (k0_pay3 (F := Ideal) x) (eq_part y)).trans (stored_mean x (y 0))

end Cert.KernelIdeal.Pay

end
-- ==== Proof.KernelArr.lean ====
/-
  From what each grid point writes to what the kernel's two result arrays hold after the run.

  Grid point `t` (of 31) works on parts `2t` and `2t + 1`: every window's block index is `(t, 0, 0)`, so the block of
  the features is rows `2t, 2t + 1` of the feature array, the block of the labels the same rows of the label array (as
  `[62, 1, 512]`), and each output's block is entries `2t, 2t + 1` of its `[62, 1, 1]` array. What the point stores at part
  `b` of its block is the specification's mean hinge, or mean distance, of part `2t + b` of the arrays as the region finds
  them; the 31 blocks cover `0 … 61` (entry `n` is in block `n / 2`), so each output array ends holding that function of
  its part index. The lines after the region re-lay `[62, 1, 1]` as `[62]`, entry `n` to entry `n`; the line before it
  re-lays the labels `[62, 512]` as `[62, 1, 512]`, entry `(n, i)` to `(n, 0, i)`; the features enter as launched.
  So the two results are `lossAll` and `meanAll` of the launch arrays.
-/
import proofs.«148909_j13563506720994_2_alg».proof.Proof.Gen.KernelIdeal.Frame
import proofs.«148909_j13563506720994_2_alg».proof.Proof.KernelPay
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Arr

open Cert.KernelIdeal Cert.KernelIdeal.Gen Cert.KernelIdeal.Pay Cert.Triplet

variable (m : (ℓ : Loc nD τ sig) → Buf (Elt Ideal) ℓ) (ρ : Dev nD → PrngReg)

/-- The feature array as the region finds it. -/
abbrev feat0 (c : Dev nD) : S62x512x256.Idx → EReal := V m c main_arg0
/-- The label array as the region finds it, `[62, 1, 512]`. -/
abbrev lab0 (c : Dev nD) : S62x1x512.Idx → BitVec 32 := V m c main_v0
/-- Part `n` of the features the region finds. -/
abbrev featP (c : Dev nD) (n : Fin 62) : Feat := fun i d => feat0 m c (ix3 n i d)
/-- Part `n` of the labels the region finds. -/
abbrev labP (c : Dev nD) (n : Fin 62) : Cert.Triplet.Labels := fun i => lab0 m c (ix3 n (0 : Fin 1) i)

/-- What the first output array ends holding: each part's mean hinge. -/
def lossArr (c : Dev nD) : S62x1x1.Idx → EReal := fun o => lossMean (featP m c (o 0)) (labP m c (o 0))
/-- What the second output array ends holding: each part's mean distance. -/
def meanArr (c : Dev nD) : S62x1x1.Idx → EReal := fun o => distMean (featP m c (o 0))

theorem hz3 : (![0, 0, 0] : Fin 3 → Nat) = fun _ => 0 := funext fun a => by fin_cases a <;> rfl

/-- Every window's block index at point `t` is `(t, 0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-! ## The input blocks are rows of the arrays -/

/-- Part `b` of the features' block at point `t` is part `2t + b` of the feature array. -/
theorem iblk0_apply (c : Dev nD) (t : Fin cfg0.N) (b : Fin 2) (i : Fin 512) (d : Fin 256) (n : Fin 62)
    (hn : n.val = 2 * t.val + b.val) :
    (iblk m c 0 t : Vec Ideal S2x512x256 .f32) (ix3 b i d) = feat0 m c (ix3 n i d) := by
  obtain ⟨e0, e1, e2, -⟩ := idx_facts t
  unfold iblk
  rw [View.read_apply]
  show V m c main_arg0 (((cfg0.win 0).blk t).view.emb (ix3 b i d)) = V m c main_arg0 (ix3 n i d)
  refine congrArg (V m c main_arg0) (funext fun a => Fin.ext ?_)
  match a with
  | ⟨0, _⟩ => show win0_0.index t (0 : Fin 3) * 2 + 1 * b.val = n.val; omega
  | ⟨1, _⟩ => show win0_0.index t (1 : Fin 3) * 512 + 1 * i.val = i.val; omega
  | ⟨2, _⟩ => show win0_0.index t (2 : Fin 3) * 256 + 1 * d.val = d.val; omega

/-- Part `b` of the labels' block at point `t` is part `2t + b` of the label array. -/
theorem iblk1_apply (c : Dev nD) (t : Fin cfg0.N) (b : Fin 2) (i : Fin 512) (n : Fin 62)
    (hn : n.val = 2 * t.val + b.val) :
    (iblk m c 1 t : Vec Ideal S2x1x512 .i32) (ix3 b (0 : Fin 1) i) = lab0 m c (ix3 n (0 : Fin 1) i) := by
  obtain ⟨-, -, -, e0, e1, e2, -⟩ := idx_facts t
  unfold iblk
  rw [View.read_apply]
  show V m c main_v0 (((cfg0.win 1).blk t).view.emb (ix3 b (0 : Fin 1) i)) = V m c main_v0 (ix3 n (0 : Fin 1) i)
  refine congrArg (V m c main_v0) (funext fun a => Fin.ext ?_)
  match a with
  | ⟨0, _⟩ => show win0_1.index t (0 : Fin 3) * 2 + 1 * b.val = n.val; omega
  | ⟨1, _⟩ => show win0_1.index t (1 : Fin 3) * 1 + 1 * 0 = 0; omega
  | ⟨2, _⟩ => show win0_1.index t (2 : Fin 3) * 512 + 1 * i.val = i.val; omega

/-! ## What a point writes back -/

/-- Point `t` writes back block `t` of `lossArr`. -/
theorem flushed2_eq (c : Dev nD) (t : Fin cfg0.N) :
    (dats m 0 c).flushed 2 t = ((cfg0.win 2).blk t).view.read (Elt Ideal) (lossArr m c) := by
  show (cfg0.win 2).cut (grid0.coords t) ((dats m 0 c).after 2 t) = _
  rw [after0_2]
  unfold out0_2
  rw [View.canon_unit_zero hz3]
  simp only [View.ld_unit_zero (S := S2x512x256) hz3, View.ld_unit_zero (S := S2x1x512) hz3]
  obtain ⟨-, -, -, -, -, -, e0, -⟩ := idx_facts t
  funext y
  show k0_pay1 (F := Ideal) (k0_pay5 (F := Ideal) (iblk m c 0 t) (iblk m c 1 t)) (k0_pay6 (F := Ideal) (iblk m c 0 t) (iblk m c 1 t)) y
    = lossArr m c (((cfg0.win 2).blk t).view.emb y)
  refine (loss_at (iblk m c 0 t) (iblk m c 1 t) y).trans ?_
  have hn : ((((cfg0.win 2).blk t).view.emb y) 0).val = 2 * t.val + (y 0).val := by
    show win0_2.index t (0 : Fin 3) * 2 + 1 * (y 0).val = 2 * t.val + (y 0).val
    omega
  unfold lossArr
  exact congrArg₂ lossMean (funext fun i => funext fun d => iblk0_apply m c t (y 0) i d _ hn)
    (funext fun i => iblk1_apply m c t (y 0) i _ hn)

/-- Point `t` writes back block `t` of `meanArr`. -/
theorem flushed3_eq (c : Dev nD) (t : Fin cfg0.N) :
    (dats m 0 c).flushed 3 t = ((cfg0.win 3).blk t).view.read (Elt Ideal) (meanArr m c) := by
  show (cfg0.win 3).cut (grid0.coords t) ((dats m 0 c).after 3 t) = _
  rw [after0_3]
  unfold out0_3
  rw [View.canon_unit_zero hz3]
  simp only [View.ld_unit_zero (S := S2x512x256) hz3]
  obtain ⟨-, -, -, -, -, -, -, -, -, e0, -⟩ := idx_facts t
  funext y
  show k0_pay3 (F := Ideal) (iblk m c 0 t) y = meanArr m c (((cfg0.win 3).blk t).view.emb y)
  refine (mean_at (iblk m c 0 t) y).trans ?_
  have hn : ((((cfg0.win 3).blk t).view.emb y) 0).val = 2 * t.val + (y 0).val := by
    show win0_3.index t (0 : Fin 3) * 2 + 1 * (y 0).val = 2 * t.val + (y 0).val
    omega
  unfold meanArr
  exact congrArg distMean (funext fun i => funext fun d => iblk0_apply m c t (y 0) i d _ hn)

/-! ## The blocks cover the arrays -/

theorem mem_blk2 (t : Fin cfg0.N) (o : S62x1x1.Idx) :
    o ∈ ((cfg0.win 2).blk t).view.set ↔ ∀ a : Fin 3, win0_2.index t a * S2x1x1.size a ≤ (o a).val ∧ (o a).val < win0_2.index t a * S2x1x1.size a + S2x1x1.size a := by
  show o ∈ ((View.whole main_v1_0).slice (win0_2.rect t)).set ↔ _
  rw [View.set_slice_whole, Rect.mem_set_unit]
  exact Iff.rfl

theorem mem_blk3 (t : Fin cfg0.N) (o : S62x1x1.Idx) :
    o ∈ ((cfg0.win 3).blk t).view.set ↔ ∀ a : Fin 3, win0_3.index t a * S2x1x1.size a ≤ (o a).val ∧ (o a).val < win0_3.index t a * S2x1x1.size a + S2x1x1.size a := by
  show o ∈ ((View.whole main_v1_1).slice (win0_3.rect t)).set ↔ _
  rw [View.set_slice_whole, Rect.mem_set_unit]
  exact Iff.rfl

/-- Entry `n` of the first output array is in the block of point `n / 2`. -/
theorem cover2 (o : S62x1x1.Idx) : ∃ t : Fin cfg0.N, (cfg0.win 2).flush t = true ∧ o ∈ ((cfg0.win 2).blk t).view.set := by
  have h0 : (o 0).val < 62 := (o 0).isLt
  have h1 : (o 1).val < 1 := (o 1).isLt
  have h2 : (o 2).val < 1 := (o 2).isLt
  have hN : cfg0.N = 31 := N_0
  have ht : (o 0).val / 2 < cfg0.N := by rw [hN]; omega
  obtain ⟨-, -, -, -, -, -, e0, e1, e2, -⟩ := idx_facts ⟨(o 0).val / 2, ht⟩
  have e0' : win0_2.index ⟨(o 0).val / 2, ht⟩ (0 : Fin 3) = (o 0).val / 2 := e0
  refine ⟨⟨(o 0).val / 2, ht⟩, flush0_2 _, ?_⟩
  rw [mem_blk2]
  intro a
  match a with
  | ⟨0, _⟩ =>
    show win0_2.index ⟨(o 0).val / 2, ht⟩ (0 : Fin 3) * 2 ≤ (o 0).val ∧ (o 0).val < win0_2.index ⟨(o 0).val / 2, ht⟩ (0 : Fin 3) * 2 + 2
    omega
  | ⟨1, _⟩ =>
    show win0_2.index ⟨(o 0).val / 2, ht⟩ (1 : Fin 3) * 1 ≤ (o 1).val ∧ (o 1).val < win0_2.index ⟨(o 0).val / 2, ht⟩ (1 : Fin 3) * 1 + 1
    omega
  | ⟨2, _⟩ =>
    show win0_2.index ⟨(o 0).val / 2, ht⟩ (2 : Fin 3) * 1 ≤ (o 2).val ∧ (o 2).val < win0_2.index ⟨(o 0).val / 2, ht⟩ (2 : Fin 3) * 1 + 1
    omega

/-- Entry `n` of the second output array is in the block of point `n / 2`. -/
theorem cover3 (o : S62x1x1.Idx) : ∃ t : Fin cfg0.N, (cfg0.win 3).flush t = true ∧ o ∈ ((cfg0.win 3).blk t).view.set := by
  have h0 : (o 0).val < 62 := (o 0).isLt
  have h1 : (o 1).val < 1 := (o 1).isLt
  have h2 : (o 2).val < 1 := (o 2).isLt
  have hN : cfg0.N = 31 := N_0
  have ht : (o 0).val / 2 < cfg0.N := by rw [hN]; omega
  obtain ⟨-, -, -, -, -, -, -, -, -, e0, e1, e2⟩ := idx_facts ⟨(o 0).val / 2, ht⟩
  have e0' : win0_3.index ⟨(o 0).val / 2, ht⟩ (0 : Fin 3) = (o 0).val / 2 := e0
  refine ⟨⟨(o 0).val / 2, ht⟩, flush0_3 _, ?_⟩
  rw [mem_blk3]
  intro a
  match a with
  | ⟨0, _⟩ =>
    show win0_3.index ⟨(o 0).val / 2, ht⟩ (0 : Fin 3) * 2 ≤ (o 0).val ∧ (o 0).val < win0_3.index ⟨(o 0).val / 2, ht⟩ (0 : Fin 3) * 2 + 2
    omega
  | ⟨1, _⟩ =>
    show win0_3.index ⟨(o 0).val / 2, ht⟩ (1 : Fin 3) * 1 ≤ (o 1).val ∧ (o 1).val < win0_3.index ⟨(o 0).val / 2, ht⟩ (1 : Fin 3) * 1 + 1
    omega
  | ⟨2, _⟩ =>
    show win0_3.index ⟨(o 0).val / 2, ht⟩ (2 : Fin 3) * 1 ≤ (o 2).val ∧ (o 2).val < win0_3.index ⟨(o 0).val / 2, ht⟩ (2 : Fin 3) * 1 + 1
    omega

/-- The first output array after the run. -/
theorem final2 (c : Dev nD) : (dats m 0 c).arrAt 2 cfg0.N = lossArr m c :=
  (dats m 0 c).arrAt_eq_of_cover 2 (lossArr m c) (fun t _ => flushed2_eq m c t) cover2

/-- The second output array after the run. -/
theorem final3 (c : Dev nD) : (dats m 0 c).arrAt 3 cfg0.N = meanArr m c :=
  (dats m 0 c).arrAt_eq_of_cover 3 (meanArr m c) (fun t _ => flushed3_eq m c t) cover3

end Cert.KernelIdeal.Arr

end
-- ==== Proof.KernelRun.lean ====
/-
  The kernel program's run, read: its two results as functions of the launch arrays.

  The region finds the features as launched and the labels re-laid from `[62, 512]` to `[62, 1, 512]` (entry `(n, i)` at
  `(n, 0, i)`), so part `n` of what it finds is part `n` of the launch arrays. After the region the two output arrays hold
  each part's mean hinge and mean distance; the two lines after it re-lay them from `[62, 1, 1]` to `[62]`, entry `n` to
  entry `n`. So the program's results are `lossAll` and `meanAll` of the launch arrays, and the arguments end unchanged.
-/
import proofs.«148909_j13563506720994_2_alg».proof.Proof.KernelArr

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.HandRun

open Cert.KernelIdeal Cert.KernelIdeal.Gen Cert.KernelIdeal.Pay Cert.KernelIdeal.Arr Cert.Triplet

variable (m : (ℓ : Loc nD τ sig) → Buf (Elt Ideal) ℓ) (ρ : Dev nD → PrngReg)

/-- The launch features, as an array. -/
abbrev featL (c : Dev nD) : S62x512x256.Idx → EReal := m ((c : Thread nD τ).loc main_arg0)
/-- The launch labels, as an array. -/
abbrev labL (c : Dev nD) : S62x512.Idx → BitVec 32 := m ((c : Thread nD τ).loc main_arg1)

/-- The labels the region finds are the launch labels re-laid as `[62, 1, 512]`. -/
theorem lab0_eq (c : Dev nD) : lab0 m c = shapeCast S62x1x512 (labL m c) shapeCasts_S62x512_S62x1x512 := by
  show StableHlo.after hostOps0 (fun b => m (c, b)) (Proc.devRef .tc main_v0) = _
  after_results
  rfl

/-- Part `n` of the features the region finds is part `n` of the launch features. -/
theorem featP_eq (c : Dev nD) (n : Fin 62) : featP m c n = featM (featL m c) n := by
  funext i d
  show V m c main_arg0 (ix3 n i d) = _
  rw [V_main_arg0]

/-- Part `n` of the labels the region finds is part `n` of the launch labels. -/
theorem labP_eq (c : Dev nD) (n : Fin 62) : labP m c n = labM (labL m c) n := by
  funext i
  show lab0 m c (ix3 n (0 : Fin 1) i) = labL m c (ix2 n i)
  rw [lab0_eq]
  exact shapeCast_apply (labL m c) _ (ix3 n (0 : Fin 1) i) (ix2 n i)
    (by rw [Shape.rowMajor_val_two, Shape.rowMajor_val_three]; simp)

/-- Entry `n` of a `[62, 1, 1]` array re-laid as `[62]`. -/
theorem cast_out (v : S62x1x1.Idx → EReal) (o : S62.Idx) :
    shapeCast S62 v shapeCasts_S62x1x1_S62 o = v (ix3 (o 0 : Fin 62) (0 : Fin 1) (0 : Fin 1)) :=
  shapeCast_apply v _ o _ (by rw [Shape.rowMajor_val_one, Shape.rowMajor_val_three]; simp)

/-- The first result: each part's mean hinge, of the launch arrays. -/
theorem tail_v2 (c : Dev nD) :
    Pipeline.afterTail₀ cfgs (dats m) 0 (V0 m) [hostOps1] c main_v2 = lossAll (featL m c) (labL m c) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1_0)
      = lossArr m c :=
    (Pipeline.withArrays_arr spec0 launch0.win.arr_inj c _ _ 2).trans (final2 m c)
  rw [e]
  funext o
  show shapeCast S62 (lossArr m c) shapeCasts_S62x1x1_S62 o = _
  rw [cast_out]
  exact congrArg₂ lossMean (featP_eq m c _) (labP_eq m c _)

/-- The second result: each part's mean distance, of the launch features. -/
theorem tail_v3 (c : Dev nD) :
    Pipeline.afterTail₀ cfgs (dats m) 0 (V0 m) [hostOps1] c main_v3 = meanAll (featL m c) := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v1_1)
      = meanArr m c :=
    (Pipeline.withArrays_arr spec0 launch0.win.arr_inj c _ _ 3).trans (final3 m c)
  rw [e]
  funext o
  show shapeCast S62 (meanArr m c) shapeCasts_S62x1x1_S62 o = _
  rw [cast_out]
  exact congrArg distMean (featP_eq m c _)

/-- Every weakly fair execution of the kernel program terminates with its two results at `lossAll` and `meanAll` of the
    launch arrays, and its arguments unchanged. -/
theorem run : θ_run defs (onTc (τ := τ) (main (F := Ideal))) ⟨m, fun _ => 0, ρ⟩ fun r => ∀ c : Dev nD,
      r.2.mem ((c.tc : Thread nD τ).loc main_v2) = lossAll (featL m c) (labL m c)
      ∧ r.2.mem ((c.tc : Thread nD τ).loc main_v3) = meanAll (featL m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (tail_v2 m c),
     ((h c).2 main_v3 (Pipeline.mem_restRefs_of main_v3 (by decide) (by decide))).trans (tail_v3 m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.KernelIdeal.HandRun

end
-- ==== Proof.LibSeqChain.lean ====
/-
  Two facts about straight lines of host operations.

  `seq ops` runs the operations of a list one after the other, and `after ops V` is what the buffers hold afterwards, from
  contents `V`. Running `l₁ ++ l₂` is running `l₁` and then `l₂`, so
  * `after (l₁ ++ l₂) V = after l₂ (after l₁ V)` (`after_append`), and
  * a chain of straight lines is the straight line of their concatenation,
    `chain [seq l₁, …, seq lₙ] = seq (l₁ ++ … ++ lₙ)` (`chain_map_seq`).
  With the second, a host program that calls small outlined functions can be stated as a chain with one item per call
  and one per stretch between calls, each call's body rewritten to the straight line of its own operations, and the
  whole then read as ONE straight line; with the first, that line's effect is read stretch by stretch.
-/
import Idealize.ShloMosaic.Lib.StableHlo.Run
import Idealize.ShloMosaic.Lib.Pipeline.Regions

namespace Idealize.ShloMosaic.StableHlo

open Idealize.SL.Sem

/-- What the buffers hold after `l₁ ++ l₂` is what they hold after `l₂`, run from what they hold after `l₁`. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A chain of straight lines is the straight line of their concatenation. -/
theorem chain_map_seq {nD : Nat} {τ : Topo} {sig : RefSig} {Val : EltTy → Type} {Λ : Labels} (ls : List (List (HloOp τ sig Val))) :
    Pipeline.chain (ls.map (seq (nD := nD) (Λ := Λ))) = seq ls.flatten := by
  induction ls with
  | nil => rfl
  | cons l ls ih => rw [List.map_cons, Pipeline.chain_cons, ih, List.flatten_cons, seq_append]

end Idealize.ShloMosaic.StableHlo
-- ==== Proof.RefRun.lean ====
/-
  The reference's run: every weakly fair execution terminates, and what each buffer then holds.

  The reference's @main is 47 host operations and five calls of small outlined functions (three selects of the shape
  "the value where the mask holds, else a broadcast constant", one with the branches the other way round, and one clamp
  at zero). Here @main is cut into stretches: the straight lines between the calls (some cut once more where a later
  module starts reading a new value) and, for each call, the three operations its body performs on the call's buffers.
  `main_chain` states @main as the chain of the straight lines and the calls, one item per call, so that the two sides
  unfold in step; each call's body is its three operations (`call*_eq`); and a chain of straight lines is the straight
  line of their concatenation (`chain_map_seq`, Proof/LibSeqChain.lean), which gives `main_eq : main c = seq ops`. No buffer or semaphore of the
  program is scoped, every operation touches TensorCore buffers only, so every weakly fair execution terminates and
  each buffer ends at what the operations, applied in order to the launch contents, leave in it (`run_after`).
-/
import proofs.«148909_j13563506720994_2_alg».proof.Proof.Gen.ReferenceIdeal
import Idealize.ShloMosaic.Lib.StableHlo.Run
import Idealize.ShloMosaic.Lib.Pipeline.Regions
import proofs.«148909_j13563506720994_2_alg».proof.Proof.LibSeqChain

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Squared norms, inner products and squared distances of all parts. -/
abbrev s1 : List (HloOp τ sig (Elt F)) :=
  [
    binary main_arg0 main_arg0 main_v0 (mulf : (⟨S62x512x256, .f32⟩ : BufTy).Contents (Elt F) → (⟨S62x512x256, .f32⟩ : BufTy).Contents (Elt F) → (⟨S62x512x256, .f32⟩ : BufTy).Contents (Elt F)),
    nullary main_cst (constant S_ .f32 0x00000000#32),
    binary main_v0 main_cst main_v1 ((fun x v => Host.reduceAdd x v reducesTo_S62x512x256_S62x512_d2 h_S_) : (⟨S62x512x256, .f32⟩ : BufTy).Contents (Elt F) → (⟨S_, .f32⟩ : BufTy).Contents (Elt F) → (⟨S62x512, .f32⟩ : BufTy).Contents (Elt F)),
    binary main_arg0 main_arg0 main_v2 ((fun l r => Host.dotGeneral dot_S62x512x256_S62x512x256_S62x512x512_2_2_1_1_0_0 none l r) : (⟨S62x512x256, .f32⟩ : BufTy).Contents (Elt F) → (⟨S62x512x256, .f32⟩ : BufTy).Contents (Elt F) → (⟨S62x512x512, .f32⟩ : BufTy).Contents (Elt F)),
    unary main_v1 main_v3 (broadcastInDim S62x512x1 ![0, 1] bcast_S62x512_S62x512x1_0_1 : (⟨S62x512, .f32⟩ : BufTy).Contents (Elt F) → (⟨S62x512x1, .f32⟩ : BufTy).Contents (Elt F)),
    unary main_v1 main_v4 (broadcastInDim S62x1x512 ![0, 2] bcast_S62x512_S62x1x512_0_2 : (⟨S62x512, .f32⟩ : BufTy).Contents (Elt F) → (⟨S62x1x512, .f32⟩ : BufTy).Contents (Elt F)),
    unary main_v3 main_v5 (broadcastInDim S62x512x512 ![0, 1, 2] bcast_S62x512x1_S62x512x512_0_1_2 : (⟨S62x512x1, .f32⟩ : BufTy).Contents (Elt F) → (⟨S62x512x512, .f32⟩ : BufTy).Contents (Elt F)),
    unary main_v4 main_v6 (broadcastInDim S62x512x512 ![0, 1, 2] bcast_S62x1x512_S62x512x512_0_1_2 : (⟨S62x1x512, .f32⟩ : BufTy).Contents (Elt F) → (⟨S62x512x512, .f32⟩ : BufTy).Contents (Elt F)),
    binary main_v5 main_v6 main_v7 (addf : (⟨S62x512x512, .f32⟩ : BufTy).Contents (Elt F) → (⟨S62x512x512, .f32⟩ : BufTy).Contents (Elt F) → (⟨S62x512x512, .f32⟩ : BufTy).Contents (Elt F)),
    nullary main_cst_0 (constant S_ .f32 0x40000000#32),
    unary main_cst_0 main_v8 (broadcastInDim S62x512x512 ![] bcast_S_S62x512x512 : (⟨S_, .f32⟩ : BufTy).Contents (Elt F) → (⟨S62x512x512, .f32⟩ : BufTy).Contents (Elt F)),
    binary main_v8 main_v2 main_v9 (mulf : (⟨S62x512x512, .f32⟩ : BufTy).Contents (Elt F) → (⟨S62x512x512, .f32⟩ : BufTy).Contents (Elt F) → (⟨S62x512x512, .f32⟩ : BufTy).Contents (Elt F)),
    binary main_v7 main_v9 main_v10 (subf : (⟨S62x512x512, .f32⟩ : BufTy).Contents (Elt F) → (⟨S62x512x512, .f32⟩ : BufTy).Contents (Elt F) → (⟨S62x512x512, .f32⟩ : BufTy).Contents (Elt F)) ]
/-- The clamp at zero, the comparison with zero and the constant one. -/
abbrev s2 : List (HloOp τ sig (Elt F)) :=
  [
    nullary main_cst_1 (constant S_ .f32 0x00000000#32),
    unary main_cst_1 main_v11 (broadcastInDim S62x512x512 ![] bcast_S_S62x512x512 : (⟨S_, .f32⟩ : BufTy).Contents (Elt F) → (⟨S62x512x512, .f32⟩ : BufTy).Contents (Elt F)),
    binary main_v10 main_v11 main_v12 (maximumf : (⟨S62x512x512, .f32⟩ : BufTy).Contents (Elt F) → (⟨S62x512x512, .f32⟩ : BufTy).Contents (Elt F) → (⟨S62x512x512, .f32⟩ : BufTy).Contents (Elt F)),
    nullary main_cst_2 (constant S_ .f32 0x00000000#32),
    unary main_cst_2 main_v13 (broadcastInDim S62x512x512 ![] bcast_S_S62x512x512 : (⟨S_, .f32⟩ : BufTy).Contents (Elt F) → (⟨S62x512x512, .f32⟩ : BufTy).Contents (Elt F)),
    binary main_v12 main_v13 main_v14 (cmpf .ogt : (⟨S62x512x512, .f32⟩ : BufTy).Contents (Elt F) → (⟨S62x512x512, .f32⟩ : BufTy).Contents (Elt F) → (⟨S62x512x512, .i1⟩ : BufTy).Contents (Elt F)),
    nullary main_cst_3 (constant S_ .f32 0x3F800000#32) ]
/-- The first select's operations: the squared distance where positive, else one. -/
abbrev w0 : List (HloOp τ sig (Elt F)) :=
  [
    TRef.unary (TRef.of (T := ⟨S_, .f32⟩) main_cst_3) main_call0.v0 id,
    TRef.unary main_call0.v0 main_call0.v1 (broadcastInDim S62x512x512 ![] bcast_S_S62x512x512),
    TRef.ternary (TRef.of (T := ⟨S62x512x512, .i1⟩) main_v14) (TRef.of (T := ⟨S62x512x512, .f32⟩) main_v12) main_call0.v1 main_call0.v2 select ]
/-- The root and the constant zero. -/
abbrev s3 : List (HloOp τ sig (Elt F)) :=
  [
    unary main_v15 main_v16 (Host.sqrt : (⟨S62x512x512, .f32⟩ : BufTy).Contents (Elt F) → (⟨S62x512x512, .f32⟩ : BufTy).Contents (Elt F)),
    nullary main_cst_4 (constant S_ .f32 0x00000000#32) ]
/-- The second select's operations: the root where positive, else zero. -/
abbrev w1 : List (HloOp τ sig (Elt F)) :=
  [
    TRef.unary (TRef.of (T := ⟨S_, .f32⟩) main_cst_4) main_call1.v0 id,
    TRef.unary main_call1.v0 main_call1.v1 (broadcastInDim S62x512x512 ![] bcast_S_S62x512x512),
    TRef.ternary (TRef.of (T := ⟨S62x512x512, .i1⟩) main_v14) (TRef.of (T := ⟨S62x512x512, .f32⟩) main_v16) main_call1.v1 main_call1.v2 select ]
/-- The mean distance. -/
abbrev s4 : List (HloOp τ sig (Elt F)) :=
  [
    nullary main_cst_5 (constant S_ .f32 0x00000000#32),
    binary main_v17 main_cst_5 main_v18 ((fun x v => Host.reduceAdd x v reducesTo_S62x512x512_S62_d1_2 h_S_) : (⟨S62x512x512, .f32⟩ : BufTy).Contents (Elt F) → (⟨S_, .f32⟩ : BufTy).Contents (Elt F) → (⟨S62, .f32⟩ : BufTy).Contents (Elt F)),
    nullary main_cst_6 (constant S_ .f32 0x48800000#32),
    unary main_cst_6 main_v19 (broadcastInDim S62 ![] bcast_S_S62 : (⟨S_, .f32⟩ : BufTy).Contents (Elt F) → (⟨S62, .f32⟩ : BufTy).Contents (Elt F)),
    binary main_v18 main_v19 main_v20 (Host.divf : (⟨S62, .f32⟩ : BufTy).Contents (Elt F) → (⟨S62, .f32⟩ : BufTy).Contents (Elt F) → (⟨S62, .f32⟩ : BufTy).Contents (Elt F)) ]
/-- The label mask and the constant -∞. -/
abbrev s5 : List (HloOp τ sig (Elt F)) :=
  [
    unary main_arg1 main_v21 (broadcastInDim S62x512x1 ![0, 1] bcast_S62x512_S62x512x1_0_1 : (⟨S62x512, .i32⟩ : BufTy).Contents (Elt F) → (⟨S62x512x1, .i32⟩ : BufTy).Contents (Elt F)),
    unary main_arg1 main_v22 (broadcastInDim S62x1x512 ![0, 2] bcast_S62x512_S62x1x512_0_2 : (⟨S62x512, .i32⟩ : BufTy).Contents (Elt F) → (⟨S62x1x512, .i32⟩ : BufTy).Contents (Elt F)),
    unary main_v21 main_v23 (broadcastInDim S62x512x512 ![0, 1, 2] bcast_S62x512x1_S62x512x512_0_1_2 : (⟨S62x512x1, .i32⟩ : BufTy).Contents (Elt F) → (⟨S62x512x512, .i32⟩ : BufTy).Contents (Elt F)),
    unary main_v22 main_v24 (broadcastInDim S62x512x512 ![0, 1, 2] bcast_S62x1x512_S62x512x512_0_1_2 : (⟨S62x1x512, .i32⟩ : BufTy).Contents (Elt F) → (⟨S62x512x512, .i32⟩ : BufTy).Contents (Elt F)),
    binary main_v23 main_v24 main_v25 (cmpi .eq : (⟨S62x512x512, .i32⟩ : BufTy).Contents (Elt F) → (⟨S62x512x512, .i32⟩ : BufTy).Contents (Elt F) → (⟨S62x512x512, .i1⟩ : BufTy).Contents (Elt F)),
    nullary main_cst_7 (constant S_ .f32 0xFF800000#32) ]
/-- The third select's operations: the distance on the mask, else -∞. -/
abbrev w2 : List (HloOp τ sig (Elt F)) :=
  [
    TRef.unary (TRef.of (T := ⟨S_, .f32⟩) main_cst_7) main_call2.v0 id,
    TRef.unary main_call2.v0 main_call2.v1 (broadcastInDim S62x512x512 ![] bcast_S_S62x512x512),
    TRef.ternary (TRef.of (T := ⟨S62x512x512, .i1⟩) main_v25) (TRef.of (T := ⟨S62x512x512, .f32⟩) main_v17) main_call2.v1 main_call2.v2 select ]
/-- The hardest positive. -/
abbrev s6a : List (HloOp τ sig (Elt F)) :=
  [
    nullary main_cst_8 (constant S_ .f32 0xFF800000#32),
    binary main_v26 main_cst_8 main_v27 ((fun x v => Host.reduce FloatOps.maximumf x v reducesTo_S62x512x512_S62x512_d2 h_S_) : (⟨S62x512x512, .f32⟩ : BufTy).Contents (Elt F) → (⟨S_, .f32⟩ : BufTy).Contents (Elt F) → (⟨S62x512, .f32⟩ : BufTy).Contents (Elt F)) ]
/-- The constant +∞. -/
abbrev s6b : List (HloOp τ sig (Elt F)) :=
  [
    nullary main_cst_9 (constant S_ .f32 0x7F800000#32) ]
/-- The fourth select's operations: +∞ on the mask, else the distance. -/
abbrev w3 : List (HloOp τ sig (Elt F)) :=
  [
    TRef.unary (TRef.of (T := ⟨S_, .f32⟩) main_cst_9) main_call3.v0 id,
    TRef.unary main_call3.v0 main_call3.v1 (broadcastInDim S62x512x512 ![] bcast_S_S62x512x512),
    TRef.ternary (TRef.of (T := ⟨S62x512x512, .i1⟩) main_v25) main_call3.v1 (TRef.of (T := ⟨S62x512x512, .f32⟩) main_v17) main_call3.v2 select ]
/-- The hardest negative. -/
abbrev s7a : List (HloOp τ sig (Elt F)) :=
  [
    nullary main_cst_10 (constant S_ .f32 0x7F800000#32),
    binary main_v28 main_cst_10 main_v29 ((fun x v => Host.reduce FloatOps.minimumf x v reducesTo_S62x512x512_S62x512_d2 h_S_) : (⟨S62x512x512, .f32⟩ : BufTy).Contents (Elt F) → (⟨S_, .f32⟩ : BufTy).Contents (Elt F) → (⟨S62x512, .f32⟩ : BufTy).Contents (Elt F)) ]
/-- The margin plus the hardest positive minus the hardest negative. -/
abbrev s7b : List (HloOp τ sig (Elt F)) :=
  [
    nullary main_cst_11 (constant S_ .f32 0x3E4CCCCD#32),
    unary main_cst_11 main_v30 (broadcastInDim S62x512 ![] bcast_S_S62x512 : (⟨S_, .f32⟩ : BufTy).Contents (Elt F) → (⟨S62x512, .f32⟩ : BufTy).Contents (Elt F)),
    binary main_v30 main_v27 main_v31 (addf : (⟨S62x512, .f32⟩ : BufTy).Contents (Elt F) → (⟨S62x512, .f32⟩ : BufTy).Contents (Elt F) → (⟨S62x512, .f32⟩ : BufTy).Contents (Elt F)),
    binary main_v31 main_v29 main_v32 (subf : (⟨S62x512, .f32⟩ : BufTy).Contents (Elt F) → (⟨S62x512, .f32⟩ : BufTy).Contents (Elt F) → (⟨S62x512, .f32⟩ : BufTy).Contents (Elt F)) ]
/-- The clamp at zero of the hinge. -/
abbrev w4 : List (HloOp τ sig (Elt F)) :=
  [
    TRef.nullary main_call4.cst (constant S_ .f32 0x00000000#32),
    TRef.unary main_call4.cst main_call4.v0 (broadcastInDim S62x512 ![] bcast_S_S62x512),
    TRef.binary (TRef.of (T := ⟨S62x512, .f32⟩) main_v32) main_call4.v0 main_call4.v1 maximumf ]
/-- The mean hinge. -/
abbrev s8 : List (HloOp τ sig (Elt F)) :=
  [
    nullary main_cst_12 (constant S_ .f32 0x00000000#32),
    binary main_v33 main_cst_12 main_v34 ((fun x v => Host.reduceAdd x v reducesTo_S62x512_S62_d1 h_S_) : (⟨S62x512, .f32⟩ : BufTy).Contents (Elt F) → (⟨S_, .f32⟩ : BufTy).Contents (Elt F) → (⟨S62, .f32⟩ : BufTy).Contents (Elt F)),
    nullary main_cst_13 (constant S_ .f32 0x44000000#32),
    unary main_cst_13 main_v35 (broadcastInDim S62 ![] bcast_S_S62 : (⟨S_, .f32⟩ : BufTy).Contents (Elt F) → (⟨S62, .f32⟩ : BufTy).Contents (Elt F)),
    binary main_v34 main_v35 main_v36 (Host.divf : (⟨S62, .f32⟩ : BufTy).Contents (Elt F) → (⟨S62, .f32⟩ : BufTy).Contents (Elt F) → (⟨S62, .f32⟩ : BufTy).Contents (Elt F)) ]

/-- @main's stretches: the straight lines between the calls, and each call's operations. -/
abbrev items : List (List (HloOp τ sig (Elt F))) := [s1 ++ s2, w0, s3, w1, s4 ++ s5, w2, s6a ++ s6b, w3, s7a ++ s7b, w4, s8]

/-- All of @main's operations, in order. -/
abbrev ops : List (HloOp τ sig (Elt F)) := items.flatten

theorem call0_eq : (fn_where.body (.of main_v14) (.of main_v12) (.of main_cst_3) main_call0 : Prog (TpuEff nD τ sig (Elt F) (Pipeline.Sig Λ₀ (Fin 0) fun p => (pcfgs (F := F) p).Adm) .tc) PUnit) = seq w0 := rfl
theorem call1_eq : (fn_where.body (.of main_v14) (.of main_v16) (.of main_cst_4) main_call1 : Prog (TpuEff nD τ sig (Elt F) (Pipeline.Sig Λ₀ (Fin 0) fun p => (pcfgs (F := F) p).Adm) .tc) PUnit) = seq w1 := rfl
theorem call2_eq : (fn_where.body (.of main_v25) (.of main_v17) (.of main_cst_7) main_call2 : Prog (TpuEff nD τ sig (Elt F) (Pipeline.Sig Λ₀ (Fin 0) fun p => (pcfgs (F := F) p).Adm) .tc) PUnit) = seq w2 := rfl
theorem call3_eq : (fn_where_0.body (.of main_v25) (.of main_cst_9) (.of main_v17) main_call3 : Prog (TpuEff nD τ sig (Elt F) (Pipeline.Sig Λ₀ (Fin 0) fun p => (pcfgs (F := F) p).Adm) .tc) PUnit) = seq w3 := rfl
theorem call4_eq : (fn_relu.body (.of main_v32) main_call4 : Prog (TpuEff nD τ sig (Elt F) (Pipeline.Sig Λ₀ (Fin 0) fun p => (pcfgs (F := F) p).Adm) .tc) PUnit) = seq w4 := rfl

/-- @main as a chain of items: the straight stretches between the calls, and the calls. -/
theorem main_chain (c : Dev nD) : main (F := F) c = Pipeline.chain
    [ seq (s1 ++ s2), fn_where.body (.of main_v14) (.of main_v12) (.of main_cst_3) main_call0, seq s3, fn_where.body (.of main_v14) (.of main_v16) (.of main_cst_4) main_call1, seq (s4 ++ s5), fn_where.body (.of main_v25) (.of main_v17) (.of main_cst_7) main_call2,
      seq (s6a ++ s6b), fn_where_0.body (.of main_v25) (.of main_cst_9) (.of main_v17) main_call3, seq (s7a ++ s7b), fn_relu.body (.of main_v32) main_call4, seq s8 ] := by
  chain_rfl

/-- @main is the straight line of its operations. -/
theorem main_eq (c : Dev nD) : main (F := F) c = seq ops := by
  rw [main_chain, call0_eq, call1_eq, call2_eq, call3_eq, call4_eq]
  exact chain_map_seq items

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨binary_bufs_sub .., nullary_bufs_sub .., binary_bufs_sub .., binary_bufs_sub .., unary_bufs_sub .., unary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., unary_bufs_sub .., ternary_bufs_sub .., nullary_bufs_sub .., binary_bufs_sub .., nullary_bufs_sub .., unary_bufs_sub .., binary_bufs_sub .., unary_bufs_sub .., unary_bufs_sub .., unary_bufs_sub .., unary_bufs_sub .., binary_bufs_sub .., nullary_bufs_sub .., unary_bufs_sub .., unary_bufs_sub .., ternary_bufs_sub .., nullary_bufs_sub .., binary_bufs_sub .., nullary_bufs_sub .., unary_bufs_sub .., unary_bufs_sub .., ternary_bufs_sub .., nullary_bufs_sub .., binary_bufs_sub .., nullary_bufs_sub .., unary_bufs_sub .., binary_bufs_sub .., binary_bufs_sub .., nullary_bufs_sub .., unary_bufs_sub .., binary_bufs_sub .., nullary_bufs_sub .., binary_bufs_sub .., nullary_bufs_sub .., unary_bufs_sub .., binary_bufs_sub ..⟩

/-- Every weakly fair execution of @main terminates, each buffer ending at what the operations, in order, leave in it. -/
theorem run_after (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ

end Cert.ReferenceIdeal.Hand

end
-- ==== Proof.TripletRefOps.lean ====
/-
  The reference's broadcasts and reductions over the whole arrays of 62 parts, read at an index.

  Broadcasts: a scalar is read everywhere; `[62,512]` as a column `[62,512,1]` or a row `[62,1,512]` keeps its entry; a
  column broadcast to `[62,512,512]` is read at the row's sample and a row at the column's sample.
  The host's sum over one axis is the initial value plus the finite sum over that axis's coordinate.

  The host's sum of a `[62,512,512]` array over its last two axes, at part `n`, is the initial value plus the sum over
  the rows `i` of the sums over the columns `j` of the entries `(n, i, j)`: the indices that reduce to `n` are exactly
  the triples with first coordinate `n`, and a sum over pairs is an iterated sum.
  The host's maximum (minimum) over the last axis, at `(n, i)`, is the fold of `max` (`min`) over the columns, started
  at the initial value.
-/
import Idealize.ShloMosaic.Lib.Pipeline.Value
import Idealize.ShloMosaic.Lib.ValueIdx
import Idealize.ShloMosaic.PureOps.Ideal.Laws

noncomputable section

namespace Cert.Triplet.RefOps

open Idealize.ShloMosaic Idealize.ShloMosaic.ValueIdx

/-- All parts' sample-by-sample matrices. -/
abbrev R512 : Shape := ⟨3, ![62, 512, 512]⟩
/-- One value per part and sample. -/
abbrev M62 : Shape := ⟨2, ![62, 512]⟩
/-- One value per part. -/
abbrev V62 : Shape := ⟨1, ![62]⟩

/-- All parts' features. -/
abbrev R256 : Shape := ⟨3, ![62, 512, 256]⟩
/-- One value per part and sample, as a column. -/
abbrev C62 : Shape := ⟨3, ![62, 512, 1]⟩
/-- One value per part and sample, as a row. -/
abbrev W62 : Shape := ⟨3, ![62, 1, 512]⟩
/-- A scalar. -/
abbrev S0 : Shape := ⟨0, ![]⟩

variable {α : Type}

/-! ## Broadcasts -/

/-- A scalar broadcast to any shape reads the scalar everywhere. -/
theorem bcast_scalar {t : Shape} (dims : Fin S0.rank → Fin t.rank) (h : S0.BroadcastsInDim t dims) (v : S0.Idx → α) (j : t.Idx) :
    broadcastInDim t dims h v j = v ix0 :=
  broadcastInDim_apply dims h v j ix0 (fun a => a.elim0)

/-- `[62,512] → [62,512,1]` along axes `0, 1`: entry `(n, i, 0)` is entry `(n, i)`. -/
theorem bcast_to_col (dims : Fin M62.rank → Fin C62.rank) (hd : dims = ![0, 1]) (h : M62.BroadcastsInDim C62 dims)
    (v : M62.Idx → α) (n : Fin 62) (i : Fin 512) :
    broadcastInDim C62 dims h v (ix3 n i (0 : Fin 1)) = v (ix2 n i) := by
  subst hd
  exact broadcastInDim_apply _ h v _ (ix2 n i) (fun a => by
    match a with
    | ⟨0, _⟩ => show n.val = if (62 : Nat) = 1 then 0 else n.val; rw [if_neg (by decide)]
    | ⟨1, _⟩ => show i.val = if (512 : Nat) = 1 then 0 else i.val; rw [if_neg (by decide)])

/-- `[62,512] → [62,1,512]` along axes `0, 2`: entry `(n, 0, j)` is entry `(n, j)`. -/
theorem bcast_to_row (dims : Fin M62.rank → Fin W62.rank) (hd : dims = ![0, 2]) (h : M62.BroadcastsInDim W62 dims)
    (v : M62.Idx → α) (n : Fin 62) (j : Fin 512) :
    broadcastInDim W62 dims h v (ix3 n (0 : Fin 1) j) = v (ix2 n j) := by
  subst hd
  exact broadcastInDim_apply _ h v _ (ix2 n j) (fun a => by
    match a with
    | ⟨0, _⟩ => show n.val = if (62 : Nat) = 1 then 0 else n.val; rw [if_neg (by decide)]
    | ⟨1, _⟩ => show j.val = if (512 : Nat) = 1 then 0 else j.val; rw [if_neg (by decide)])

/-- A column broadcast along the last axis: entry `(n, i, j)` is the column's `(n, i, 0)`. -/
theorem bcast_col_all (dims : Fin C62.rank → Fin R512.rank) (hd : dims = ![0, 1, 2]) (h : C62.BroadcastsInDim R512 dims)
    (v : C62.Idx → α) (n : Fin 62) (i j : Fin 512) :
    broadcastInDim R512 dims h v (ix3 n i j) = v (ix3 n i (0 : Fin 1)) := by
  subst hd
  exact broadcastInDim_apply _ h v _ (ix3 n i (0 : Fin 1)) (fun a => by
    match a with
    | ⟨0, _⟩ => show n.val = if (62 : Nat) = 1 then 0 else n.val; rw [if_neg (by decide)]
    | ⟨1, _⟩ => show i.val = if (512 : Nat) = 1 then 0 else i.val; rw [if_neg (by decide)]
    | ⟨2, _⟩ => show 0 = if (1 : Nat) = 1 then 0 else j.val; rw [if_pos rfl])

/-- A row broadcast along the middle axis: entry `(n, i, j)` is the row's `(n, 0, j)`. -/
theorem bcast_row_all (dims : Fin W62.rank → Fin R512.rank) (hd : dims = ![0, 1, 2]) (h : W62.BroadcastsInDim R512 dims)
    (v : W62.Idx → α) (n : Fin 62) (i j : Fin 512) :
    broadcastInDim R512 dims h v (ix3 n i j) = v (ix3 n (0 : Fin 1) j) := by
  subst hd
  exact broadcastInDim_apply _ h v _ (ix3 n (0 : Fin 1) j) (fun a => by
    match a with
    | ⟨0, _⟩ => show n.val = if (62 : Nat) = 1 then 0 else n.val; rw [if_neg (by decide)]
    | ⟨1, _⟩ => show 0 = if (1 : Nat) = 1 then 0 else i.val; rw [if_pos rfl]
    | ⟨2, _⟩ => show j.val = if (512 : Nat) = 1 then 0 else j.val; rw [if_neg (by decide)])

/-! ## Sums and extrema -/

/-- The host's sum over the coordinates of a sample: the initial value plus the sum over the last axis. -/
theorem hostSum_last256 (h' : R256.ReducesTo [2] M62) (x : R256.Idx → EReal) (init : EReal) (n : Fin 62) (i : Fin 512) :
    Ideal.hostReduceAdd h' x init (ix2 n i) = init + ∑ d : Fin 256, x (ix3 n i d) :=
  (Ideal.hostReduceAdd_single h' (by decide) x init (ix2 n i)).trans
    (congrArg (init + ·) (Finset.sum_congr rfl fun k _ => congrArg x (funext fun a => Fin.ext (by
      match a with | ⟨0, _⟩ => rfl | ⟨1, _⟩ => rfl | ⟨2, _⟩ => rfl))))

/-- The host's sum over the samples of a part: the initial value plus the sum over the last axis. -/
theorem hostSum_samples (h' : M62.ReducesTo [1] V62) (x : M62.Idx → EReal) (init : EReal) (n : Fin 62) :
    Ideal.hostReduceAdd h' x init (ix1 n) = init + ∑ i : Fin 512, x (ix2 n i) :=
  (Ideal.hostReduceAdd_single h' (by decide) x init (ix1 n)).trans
    (congrArg (init + ·) (Finset.sum_congr rfl fun k _ => congrArg x (funext fun a => Fin.ext (by
      match a with | ⟨0, _⟩ => rfl | ⟨1, _⟩ => rfl))))

/-- Reducing the last two axes keeps the part's coordinate. -/
theorem drop12 (h' : R512.ReducesTo [1, 2] V62) (p : R512.Idx) : h'.drop p = ix1 (p 0) :=
  funext fun a => Fin.ext (by
    match a with
    | ⟨0, _⟩ => exact Shape.ReducesTo.drop_apply_val_of_eq h' p 0 0)

/-- The host's sum over the last two axes at part `n`: the initial value plus the iterated sum over rows and columns. -/
theorem hostSum_pairs (h' : R512.ReducesTo [1, 2] V62) (x : R512.Idx → EReal) (init : EReal) (n : Fin 62) :
    Ideal.hostReduceAdd h' x init (ix1 n) = init + ∑ i : Fin 512, ∑ j : Fin 512, x (ix3 n i j) := by
  unfold Ideal.hostReduceAdd
  refine congrArg (init + ·) ?_
  rw [← Fintype.sum_prod_type' (fun (i j : Fin 512) => x (ix3 n i j))]
  refine Finset.sum_nbij' (fun p => ((p 1 : Fin 512), (p 2 : Fin 512))) (fun q => ix3 n q.1 q.2) ?_ ?_ ?_ ?_ ?_
  · intro p _; exact Finset.mem_univ _
  · intro q _; exact Finset.mem_filter.2 ⟨Finset.mem_univ _, drop12 h' _⟩
  · intro p hp
    have h0 : ix1 (p 0) = ix1 n := (drop12 h' p).symm.trans (Finset.mem_filter.1 hp).2
    have h1 : p 0 = n := congrFun h0 0
    funext a
    match a with
    | ⟨0, _⟩ => exact h1.symm
    | ⟨1, _⟩ => rfl
    | ⟨2, _⟩ => rfl
  · intro q _; rfl
  · intro p hp
    have h0 : ix1 (p 0) = ix1 n := (drop12 h' p).symm.trans (Finset.mem_filter.1 hp).2
    have h1 : p 0 = n := congrFun h0 0
    refine congrArg x (funext fun a => ?_)
    match a with
    | ⟨0, _⟩ => exact h1
    | ⟨1, _⟩ => rfl
    | ⟨2, _⟩ => rfl

/-- The host's maximum over the last axis at `(n, i)`: the fold of `max` over the columns from the initial value. -/
theorem hostMax_last {u : Shape} (h' : R512.ReducesTo [2] M62) (x : R512.Idx → EReal) (init : u.Idx → EReal)
    (hu : 0 < u.numel) (n : Fin 62) (i : Fin 512) :
    Host.reduce (FloatOps.maximumf (F := Ideal) (φ := .f32)) x init h' hu (ix2 n i)
      = (Finset.univ : Finset (Fin 512)).fold max (init (Shape.Idx.first hu)) (fun j => x (ix3 n i j)) :=
  (Host.reduce_eq_fold_single (FloatOps.maximumf (F := Ideal) (φ := .f32)) x init h' (by decide) hu (ix2 n i)).trans
    (congrArg (Finset.fold max (init (Shape.Idx.first hu)) · Finset.univ) (funext fun k => congrArg x (funext fun a => Fin.ext (by
      match a with | ⟨0, _⟩ => rfl | ⟨1, _⟩ => rfl | ⟨2, _⟩ => rfl))))

/-- The host's minimum over the last axis at `(n, i)`: the fold of `min` over the columns from the initial value. -/
theorem hostMin_last {u : Shape} (h' : R512.ReducesTo [2] M62) (x : R512.Idx → EReal) (init : u.Idx → EReal)
    (hu : 0 < u.numel) (n : Fin 62) (i : Fin 512) :
    Host.reduce (FloatOps.minimumf (F := Ideal) (φ := .f32)) x init h' hu (ix2 n i)
      = (Finset.univ : Finset (Fin 512)).fold min (init (Shape.Idx.first hu)) (fun j => x (ix3 n i j)) :=
  (Host.reduce_eq_fold_single (FloatOps.minimumf (F := Ideal) (φ := .f32)) x init h' (by decide) hu (ix2 n i)).trans
    (congrArg (Finset.fold min (init (Shape.Idx.first hu)) · Finset.univ) (funext fun k => congrArg x (funext fun a => Fin.ext (by
      match a with | ⟨0, _⟩ => rfl | ⟨1, _⟩ => rfl | ⟨2, _⟩ => rfl))))

end Cert.Triplet.RefOps

end
-- ==== Proof.RefValue.lean ====
/-
  What the reference computes, read index by index on the extended reals, and its run.

  The reference's values are named in its own order — the squared norms, the inner products, the squared distances, the
  distances (clamped at zero before the guarded root), the mean distance, the label mask, the hardest positives and
  negatives, the mean hinge — and each stretch of its operations is read once: what it writes is the named term of what it
  reads, and what it does not write it leaves alone. Read at an index:
  * the host's sum of squares over the coordinates is `sqNorm`, its batched product the inner product `gram`; the squared
    norms broadcast as a column are read at the row's sample and as a row at the column's, which gives `sqDist`;
  * clamping the squared distance at zero before "the root where positive, else zero" changes nothing (`rootPos_max`),
    so the distance is `dist`;
  * the sum over both sample axes is the iterated sum, so the mean distance is `distMean`; the maximum and minimum over
    the columns of the masked distances are `hardPos` and `hardNeg`; the clamped margin summed over the samples and
    divided by 512 is `lossMean`. A host sum starts from the constant zero, which adds nothing.
  Joining the stretches, the reference's two results are `lossAll` and `meanAll` of the launch arrays.
-/
import proofs.«148909_j13563506720994_2_alg».proof.Proof.RefRun
import proofs.«148909_j13563506720994_2_alg».proof.Proof.TripletSpec
import proofs.«148909_j13563506720994_2_alg».proof.Proof.TripletRefOps

noncomputable section

open Idealize.ShloMosaic Idealize.ShloMosaic.TcCoe Idealize.SL.Sem Idealize.ShloMosaic.ValueIdx Idealize.ShloMosaic.StableHlo

namespace Cert.ReferenceIdeal.HandValue

open Cert.ReferenceIdeal Cert.ReferenceIdeal.Gen Cert.ReferenceIdeal.Hand Cert.Triplet Cert.Triplet.RefOps

/-! ## The reference's values, named -/

/-- The squared norms of all samples. -/
def sqAll (x : FVec Ideal S62x512x256 .f32) : FVec Ideal S62x512 .f32 :=
  Host.reduceAdd (mulf x x) (constant (F := Ideal) S_ .f32 0x00000000#32) reducesTo_S62x512x256_S62x512_d2 h_S_

/-- The inner products of the samples of each part. -/
def gramAll (x : FVec Ideal S62x512x256 .f32) : FVec Ideal S62x512x512 .f32 :=
  Host.dotGeneral dot_S62x512x256_S62x512x256_S62x512x512_2_2_1_1_0_0 none x x

/-- The squared distances. -/
def d2All (x : FVec Ideal S62x512x256 .f32) : FVec Ideal S62x512x512 .f32 :=
  subf (addf (broadcastInDim S62x512x512 ![0, 1, 2] bcast_S62x512x1_S62x512x512_0_1_2 (broadcastInDim S62x512x1 ![0, 1] bcast_S62x512_S62x512x1_0_1 (sqAll x)))
      (broadcastInDim S62x512x512 ![0, 1, 2] bcast_S62x1x512_S62x512x512_0_1_2 (broadcastInDim S62x1x512 ![0, 2] bcast_S62x512_S62x1x512_0_2 (sqAll x))))
    (mulf (broadcastInDim S62x512x512 ![] bcast_S_S62x512x512 (constant (F := Ideal) S_ .f32 0x40000000#32)) (gramAll x))

/-- The distances from the squared distances: clamp at zero, then the root where positive and zero elsewhere. -/
def distAll (d : FVec Ideal S62x512x512 .f32) : FVec Ideal S62x512x512 .f32 :=
  select (cmpf .ogt (maximumf d (broadcastInDim S62x512x512 ![] bcast_S_S62x512x512 (constant (F := Ideal) S_ .f32 0x00000000#32))) (broadcastInDim S62x512x512 ![] bcast_S_S62x512x512 (constant (F := Ideal) S_ .f32 0x00000000#32)))
    (Host.sqrt (select (cmpf .ogt (maximumf d (broadcastInDim S62x512x512 ![] bcast_S_S62x512x512 (constant (F := Ideal) S_ .f32 0x00000000#32))) (broadcastInDim S62x512x512 ![] bcast_S_S62x512x512 (constant (F := Ideal) S_ .f32 0x00000000#32)))
      (maximumf d (broadcastInDim S62x512x512 ![] bcast_S_S62x512x512 (constant (F := Ideal) S_ .f32 0x00000000#32))) (broadcastInDim S62x512x512 ![] bcast_S_S62x512x512 (constant (F := Ideal) S_ .f32 0x3F800000#32))))
    (broadcastInDim S62x512x512 ![] bcast_S_S62x512x512 (constant (F := Ideal) S_ .f32 0x00000000#32))

/-- Each part's mean distance. -/
def meanOf (dist : FVec Ideal S62x512x512 .f32) : FVec Ideal S62 .f32 :=
  Host.divf (Host.reduceAdd dist (constant (F := Ideal) S_ .f32 0x00000000#32) reducesTo_S62x512x512_S62_d1_2 h_S_)
    (broadcastInDim S62 ![] bcast_S_S62 (constant (F := Ideal) S_ .f32 0x48800000#32))

/-- Which pairs of samples carry the same label. -/
def maskAll (l : IVec S62x512 32) : IVec S62x512x512 1 :=
  cmpi .eq (broadcastInDim S62x512x512 ![0, 1, 2] bcast_S62x512x1_S62x512x512_0_1_2 (broadcastInDim S62x512x1 ![0, 1] bcast_S62x512_S62x512x1_0_1 l))
    (broadcastInDim S62x512x512 ![0, 1, 2] bcast_S62x1x512_S62x512x512_0_1_2 (broadcastInDim S62x1x512 ![0, 2] bcast_S62x512_S62x1x512_0_2 l))

/-- The hardest positives. -/
def hpAll (mask : IVec S62x512x512 1) (dist : FVec Ideal S62x512x512 .f32) : FVec Ideal S62x512 .f32 :=
  Host.reduce FloatOps.maximumf (select mask dist (broadcastInDim S62x512x512 ![] bcast_S_S62x512x512 (constant (F := Ideal) S_ .f32 0xFF800000#32))) (constant (F := Ideal) S_ .f32 0xFF800000#32)
    reducesTo_S62x512x512_S62x512_d2 h_S_

/-- The hardest negatives. -/
def hnAll (mask : IVec S62x512x512 1) (dist : FVec Ideal S62x512x512 .f32) : FVec Ideal S62x512 .f32 :=
  Host.reduce FloatOps.minimumf (select mask (broadcastInDim S62x512x512 ![] bcast_S_S62x512x512 (constant (F := Ideal) S_ .f32 0x7F800000#32)) dist) (constant (F := Ideal) S_ .f32 0x7F800000#32)
    reducesTo_S62x512x512_S62x512_d2 h_S_

/-- Each part's mean hinge, from the hardest positives and negatives. -/
def lossOf (hp hn : FVec Ideal S62x512 .f32) : FVec Ideal S62 .f32 :=
  Host.divf (Host.reduceAdd
      (maximumf (subf (addf (broadcastInDim S62x512 ![] bcast_S_S62x512 (constant (F := Ideal) S_ .f32 0x3E4CCCCD#32)) hp) hn)
        (broadcastInDim S62x512 ![] bcast_S_S62x512 (constant (F := Ideal) S_ .f32 0x00000000#32)))
      (constant (F := Ideal) S_ .f32 0x00000000#32) reducesTo_S62x512_S62_d1 h_S_)
    (broadcastInDim S62 ![] bcast_S_S62 (constant (F := Ideal) S_ .f32 0x44000000#32))

/-! ## Each stretch of operations, read -/

theorem readA (V : Valuation τ sig (Elt Ideal)) : after s1 V (Proc.devRef .tc main_v10) = d2All (V (Proc.devRef .tc main_arg0)) := by
  after_results
  rfl
theorem readB (V : Valuation τ sig (Elt Ideal)) : after w1 (after s3 (after w0 (after s2 V))) (Proc.devRef .tc main_v17) = distAll (V (Proc.devRef .tc main_v10)) := by
  after_results
  rfl
theorem readC (V : Valuation τ sig (Elt Ideal)) : after s4 V (Proc.devRef .tc main_v20) = meanOf (V (Proc.devRef .tc main_v17)) := by
  after_results
  rfl
theorem readD25 (V : Valuation τ sig (Elt Ideal)) : after s6a (after w2 (after s5 V)) (Proc.devRef .tc main_v25) = maskAll (V (Proc.devRef .tc main_arg1)) := by
  after_results
  rfl
theorem readD27 (V : Valuation τ sig (Elt Ideal)) : after s6a (after w2 (after s5 V)) (Proc.devRef .tc main_v27) = hpAll (maskAll (V (Proc.devRef .tc main_arg1))) (V (Proc.devRef .tc main_v17)) := by
  after_results
  rfl
theorem readF (V : Valuation τ sig (Elt Ideal)) : after s7a (after w3 (after s6b V)) (Proc.devRef .tc main_v29) = hnAll (V (Proc.devRef .tc main_v25)) (V (Proc.devRef .tc main_v17)) := by
  after_results
  rfl
theorem readG (V : Valuation τ sig (Elt Ideal)) : after s8 (after w4 (after s7b V)) (Proc.devRef .tc main_v36) = lossOf (V (Proc.devRef .tc main_v27)) (V (Proc.devRef .tc main_v29)) := by
  after_results
  rfl

/-! ## What each stretch leaves alone -/

theorem keepA_arg0 (V : Valuation τ sig (Elt Ideal)) : after s1 V (Proc.devRef .tc main_arg0) = V (Proc.devRef .tc main_arg0) := by
  after_results
theorem keepA_arg1 (V : Valuation τ sig (Elt Ideal)) : after s1 V (Proc.devRef .tc main_arg1) = V (Proc.devRef .tc main_arg1) := by
  after_results
theorem keepB_arg0 (V : Valuation τ sig (Elt Ideal)) : after w1 (after s3 (after w0 (after s2 V))) (Proc.devRef .tc main_arg0) = V (Proc.devRef .tc main_arg0) := by
  after_results
theorem keepB_arg1 (V : Valuation τ sig (Elt Ideal)) : after w1 (after s3 (after w0 (after s2 V))) (Proc.devRef .tc main_arg1) = V (Proc.devRef .tc main_arg1) := by
  after_results
theorem keepC_arg0 (V : Valuation τ sig (Elt Ideal)) : after s4 V (Proc.devRef .tc main_arg0) = V (Proc.devRef .tc main_arg0) := by
  after_results
theorem keepC_arg1 (V : Valuation τ sig (Elt Ideal)) : after s4 V (Proc.devRef .tc main_arg1) = V (Proc.devRef .tc main_arg1) := by
  after_results
theorem keepC_v17 (V : Valuation τ sig (Elt Ideal)) : after s4 V (Proc.devRef .tc main_v17) = V (Proc.devRef .tc main_v17) := by
  after_results
theorem keepD_arg0 (V : Valuation τ sig (Elt Ideal)) : after s6a (after w2 (after s5 V)) (Proc.devRef .tc main_arg0) = V (Proc.devRef .tc main_arg0) := by
  after_results
theorem keepD_arg1 (V : Valuation τ sig (Elt Ideal)) : after s6a (after w2 (after s5 V)) (Proc.devRef .tc main_arg1) = V (Proc.devRef .tc main_arg1) := by
  after_results
theorem keepD_v17 (V : Valuation τ sig (Elt Ideal)) : after s6a (after w2 (after s5 V)) (Proc.devRef .tc main_v17) = V (Proc.devRef .tc main_v17) := by
  after_results
theorem keepD_v20 (V : Valuation τ sig (Elt Ideal)) : after s6a (after w2 (after s5 V)) (Proc.devRef .tc main_v20) = V (Proc.devRef .tc main_v20) := by
  after_results
theorem keepF_arg0 (V : Valuation τ sig (Elt Ideal)) : after s7a (after w3 (after s6b V)) (Proc.devRef .tc main_arg0) = V (Proc.devRef .tc main_arg0) := by
  after_results
theorem keepF_arg1 (V : Valuation τ sig (Elt Ideal)) : after s7a (after w3 (after s6b V)) (Proc.devRef .tc main_arg1) = V (Proc.devRef .tc main_arg1) := by
  after_results
theorem keepF_v27 (V : Valuation τ sig (Elt Ideal)) : after s7a (after w3 (after s6b V)) (Proc.devRef .tc main_v27) = V (Proc.devRef .tc main_v27) := by
  after_results
theorem keepF_v20 (V : Valuation τ sig (Elt Ideal)) : after s7a (after w3 (after s6b V)) (Proc.devRef .tc main_v20) = V (Proc.devRef .tc main_v20) := by
  after_results
theorem keepG_arg0 (V : Valuation τ sig (Elt Ideal)) : after s8 (after w4 (after s7b V)) (Proc.devRef .tc main_arg0) = V (Proc.devRef .tc main_arg0) := by
  after_results
theorem keepG_arg1 (V : Valuation τ sig (Elt Ideal)) : after s8 (after w4 (after s7b V)) (Proc.devRef .tc main_arg1) = V (Proc.devRef .tc main_arg1) := by
  after_results
theorem keepG_v20 (V : Valuation τ sig (Elt Ideal)) : after s8 (after w4 (after s7b V)) (Proc.devRef .tc main_v20) = V (Proc.devRef .tc main_v20) := by
  after_results

/-! ## The stages at an index -/

/-- The zero initial value of a host sum adds nothing. -/
theorem zero_init (s : EReal) : Ideal.ofBits .f32 0x00000000#32 + s = s := by
  rw [Ideal.ofBits_zero_f32, zero_add]

theorem sqAll_apply (x : FVec Ideal S62x512x256 .f32) (n : Fin 62) (i : Fin 512) :
    sqAll x (ix2 n i) = sqNorm (featM x n) i :=
  (hostSum_last256 reducesTo_S62x512x256_S62x512_d2 (mulf x x) (Ideal.ofBits .f32 0x00000000#32) n i).trans (zero_init _)

/-- The product's dimension record: batch axis 0, rows axis 1, contraction over axis 2 of both operands. -/
abbrev DR : DotDims S62x512x256 S62x512x256 S62x512x512 := dot_S62x512x256_S62x512x256_S62x512x512_2_2_1_1_0_0

theorem lhs0 (o : S62x512x512.Idx) (q : DR.contr.Idx) : (DR.lhsIdx o q 0).val = (o 0).val := by
  unfold DotDims.lhsIdx
  rw [dif_pos (show (0 : Fin S62x512x256.rank) ∈ DR.lhsBatch by decide)]
  rfl
theorem lhs1 (o : S62x512x512.Idx) (q : DR.contr.Idx) : (DR.lhsIdx o q 1).val = (o 1).val := by
  unfold DotDims.lhsIdx
  rw [dif_neg (show ¬(1 : Fin S62x512x256.rank) ∈ DR.lhsBatch by decide), dif_pos (show (1 : Fin S62x512x256.rank) ∈ DR.lhsNonContracting by decide)]
  rfl
theorem lhs2 (o : S62x512x512.Idx) (q : DR.contr.Idx) : (DR.lhsIdx o q 2).val = (q ⟨0, by decide⟩).val :=
  DR.lhsIdx_val_of_single rfl o q
theorem rhs0 (o : S62x512x512.Idx) (q : DR.contr.Idx) : (DR.rhsIdx o q 0).val = (o 0).val := by
  unfold DotDims.rhsIdx
  rw [dif_pos (show (0 : Fin S62x512x256.rank) ∈ DR.rhsBatch by decide)]
  rfl
theorem rhs1 (o : S62x512x512.Idx) (q : DR.contr.Idx) : (DR.rhsIdx o q 1).val = (o 2).val := by
  unfold DotDims.rhsIdx
  rw [dif_neg (show ¬(1 : Fin S62x512x256.rank) ∈ DR.rhsBatch by decide), dif_pos (show (1 : Fin S62x512x256.rank) ∈ DR.rhsNonContracting by decide)]
  rfl
theorem rhs2 (o : S62x512x512.Idx) (q : DR.contr.Idx) : (DR.rhsIdx o q 2).val = (q ⟨0, by decide⟩).val :=
  DR.rhsIdx_val_of_single rfl o q

/-- The host's batched product at `(n, i, j)`: the inner product of samples `i` and `j` of part `n`. -/
theorem gramAll_apply (x : FVec Ideal S62x512x256 .f32) (n : Fin 62) (i j : Fin 512) :
    gramAll x (ix3 n i j) = gram (featM x n) i j := by
  unfold gramAll
  simp only [Host.dotGeneral]
  rw [Ideal.dotGeneral_apply, ← Equiv.sum_comp (contrEquiv1 DR 256 rfl rfl).symm]
  refine Finset.sum_congr rfl fun k _ => ?_
  have hk := contrEquiv1_symm_val DR 256 rfl rfl k
  have el : DR.lhsIdx (ix3 n i j) ((contrEquiv1 DR 256 rfl rfl).symm k) = ix3 n i k := funext fun a => Fin.ext (by
    match a with
    | ⟨0, _⟩ => exact lhs0 _ _
    | ⟨1, _⟩ => exact lhs1 _ _
    | ⟨2, _⟩ => exact (lhs2 _ _).trans hk)
  have er : DR.rhsIdx (ix3 n i j) ((contrEquiv1 DR 256 rfl rfl).symm k) = ix3 n j k := funext fun a => Fin.ext (by
    match a with
    | ⟨0, _⟩ => exact rhs0 _ _
    | ⟨1, _⟩ => exact rhs1 _ _
    | ⟨2, _⟩ => exact (rhs2 _ _).trans hk)
  rw [el, er]

theorem d2All_apply (x : FVec Ideal S62x512x256 .f32) (n : Fin 62) (i j : Fin 512) :
    d2All x (ix3 n i j) = sqDist (featM x n) i j := by
  have e1 : broadcastInDim S62x512x512 ![0, 1, 2] bcast_S62x512x1_S62x512x512_0_1_2 (broadcastInDim S62x512x1 ![0, 1] bcast_S62x512_S62x512x1_0_1 (sqAll x)) (ix3 n i j)
      = sqNorm (featM x n) i :=
    (bcast_col_all _ rfl _ _ n i j).trans ((bcast_to_col _ rfl _ _ n i).trans (sqAll_apply x n i))
  have e2 : broadcastInDim S62x512x512 ![0, 1, 2] bcast_S62x1x512_S62x512x512_0_1_2 (broadcastInDim S62x1x512 ![0, 2] bcast_S62x512_S62x1x512_0_2 (sqAll x)) (ix3 n i j)
      = sqNorm (featM x n) j :=
    (bcast_row_all _ rfl _ _ n i j).trans ((bcast_to_row _ rfl _ _ n j).trans (sqAll_apply x n j))
  unfold d2All sqDist
  rw [subf_apply, addf_apply, mulf_apply, e1, e2, gramAll_apply]
  rfl

/-- The clamp at zero before the guarded root changes nothing (`rootPos_max`). -/
theorem distAll_apply (d : FVec Ideal S62x512x512 .f32) (n : Fin 62) (i j : Fin 512) :
    distAll d (ix3 n i j) = rootPos (d (ix3 n i j)) :=
  (show distAll d (ix3 n i j) = rootPos (max (d (ix3 n i j)) (Ideal.ofBits .f32 0x00000000#32)) from rfl).trans (rootPos_max _)

theorem dist_apply (x : FVec Ideal S62x512x256 .f32) (n : Fin 62) (i j : Fin 512) :
    distAll (d2All x) (ix3 n i j) = dist (featM x n) i j :=
  (distAll_apply _ n i j).trans (congrArg rootPos (d2All_apply x n i j))

theorem meanOf_apply (dist : FVec Ideal S62x512x512 .f32) (n : Fin 62) :
    meanOf dist (ix1 n) = Ideal.div (∑ i : Fin 512, ∑ j : Fin 512, dist (ix3 n i j)) (Ideal.ofBits .f32 0x48800000#32) :=
  congrArg (Ideal.div · (Ideal.ofBits .f32 0x48800000#32))
    ((hostSum_pairs reducesTo_S62x512x512_S62_d1_2 dist (Ideal.ofBits .f32 0x00000000#32) n).trans (zero_init _))

theorem maskAll_apply (l : IVec S62x512 32) (n : Fin 62) (i j : Fin 512) :
    maskAll l (ix3 n i j) = same (labM l n) i j := by
  have e1 : broadcastInDim S62x512x512 ![0, 1, 2] bcast_S62x512x1_S62x512x512_0_1_2 (broadcastInDim S62x512x1 ![0, 1] bcast_S62x512_S62x512x1_0_1 l) (ix3 n i j)
      = l (ix2 n i) := (bcast_col_all _ rfl _ _ n i j).trans (bcast_to_col _ rfl _ _ n i)
  have e2 : broadcastInDim S62x512x512 ![0, 1, 2] bcast_S62x1x512_S62x512x512_0_1_2 (broadcastInDim S62x1x512 ![0, 2] bcast_S62x512_S62x1x512_0_2 l) (ix3 n i j)
      = l (ix2 n j) := (bcast_row_all _ rfl _ _ n i j).trans (bcast_to_row _ rfl _ _ n j)
  show IntOp.cmpi .eq _ _ = IntOp.cmpi .eq _ _
  rw [e1, e2]

theorem hpAll_apply (mask : IVec S62x512x512 1) (dist : FVec Ideal S62x512x512 .f32) (n : Fin 62) (i : Fin 512) :
    hpAll mask dist (ix2 n i) = (Finset.univ : Finset (Fin 512)).fold max (Ideal.ofBits .f32 0xFF800000#32)
      (fun j => Scalar.select (mask (ix3 n i j)) (dist (ix3 n i j)) (Ideal.ofBits .f32 0xFF800000#32)) :=
  hostMax_last reducesTo_S62x512x512_S62x512_d2 _ _ h_S_ n i

theorem hnAll_apply (mask : IVec S62x512x512 1) (dist : FVec Ideal S62x512x512 .f32) (n : Fin 62) (i : Fin 512) :
    hnAll mask dist (ix2 n i) = (Finset.univ : Finset (Fin 512)).fold min (Ideal.ofBits .f32 0x7F800000#32)
      (fun j => Scalar.select (mask (ix3 n i j)) (Ideal.ofBits .f32 0x7F800000#32) (dist (ix3 n i j))) :=
  hostMin_last reducesTo_S62x512x512_S62x512_d2 _ _ h_S_ n i

theorem lossOf_apply (hp hn : FVec Ideal S62x512 .f32) (n : Fin 62) :
    lossOf hp hn (ix1 n) = Ideal.div (∑ i : Fin 512, max (Ideal.ofBits .f32 0x3E4CCCCD#32 + hp (ix2 n i) - hn (ix2 n i)) (Ideal.ofBits .f32 0x00000000#32))
      (Ideal.ofBits .f32 0x44000000#32) :=
  congrArg (Ideal.div · (Ideal.ofBits .f32 0x44000000#32))
    ((hostSum_samples reducesTo_S62x512_S62_d1 _ (Ideal.ofBits .f32 0x00000000#32) n).trans (zero_init _))

/-! ## The two results as functions of the arguments -/

/-- The first result's term: the mean hinge from the hardest positives and negatives of the masked distances. -/
def loss36 (x : FVec Ideal S62x512x256 .f32) (l : IVec S62x512 32) : FVec Ideal S62 .f32 :=
  lossOf (hpAll (maskAll l) (distAll (d2All x))) (hnAll (maskAll l) (distAll (d2All x)))

/-- The second result's term: the mean of the distances. -/
def mean20 (x : FVec Ideal S62x512x256 .f32) : FVec Ideal S62 .f32 := meanOf (distAll (d2All x))

theorem mean20_eq (x : FVec Ideal S62x512x256 .f32) : mean20 x = meanAll x := by
  funext o
  obtain ⟨n, rfl⟩ : ∃ n : Fin 62, o = ix1 n := ⟨o 0, eq_ix1 o⟩
  unfold mean20 meanAll distMean
  rw [meanOf_apply]
  exact congrArg (Ideal.div · (Ideal.ofBits .f32 0x48800000#32))
    (Finset.sum_congr rfl fun i _ => Finset.sum_congr rfl fun j _ => dist_apply x n i j)

theorem loss36_eq (x : FVec Ideal S62x512x256 .f32) (l : IVec S62x512 32) : loss36 x l = lossAll x l := by
  funext o
  obtain ⟨n, rfl⟩ : ∃ n : Fin 62, o = ix1 n := ⟨o 0, eq_ix1 o⟩
  unfold loss36 lossAll lossMean
  rw [lossOf_apply]
  refine congrArg (Ideal.div · (Ideal.ofBits .f32 0x44000000#32)) (Finset.sum_congr rfl fun i _ => ?_)
  have hp : hpAll (maskAll l) (distAll (d2All x)) (ix2 n i) = hardPos (featM x n) (labM l n) i := by
    rw [hpAll_apply]
    unfold hardPos
    refine congrArg (Finset.fold max (Ideal.ofBits .f32 0xFF800000#32) · Finset.univ) (funext fun j => ?_)
    rw [maskAll_apply, dist_apply]
  have hn : hnAll (maskAll l) (distAll (d2All x)) (ix2 n i) = hardNeg (featM x n) (labM l n) i := by
    rw [hnAll_apply]
    unfold hardNeg
    refine congrArg (Finset.fold min (Ideal.ofBits .f32 0x7F800000#32) · Finset.univ) (funext fun j => ?_)
    rw [maskAll_apply, dist_apply]
  rw [hp, hn]
  rfl

/-! ## The run, read -/

/-- The operations applied in order, stretch by stretch. -/
theorem after_ops (V : Valuation τ sig (Elt Ideal)) :
    after ops V = after s8 (after w4 (after s7b (after s7a (after w3 (after s6b (after s6a (after w2 (after s5 (after s4
      (after w1 (after s3 (after w0 (after s2 (after s1 V)))))))))))))) := by
  simp only [ops, items, List.flatten_cons, List.flatten_nil, List.append_nil, after_append]

theorem after_v36 (V : Valuation τ sig (Elt Ideal)) :
    after ops V (Proc.devRef .tc main_v36) = loss36 (V (Proc.devRef .tc main_arg0)) (V (Proc.devRef .tc main_arg1)) := by
  rw [after_ops, readG, keepF_v27, readD27, readF, readD25, keepD_v17, keepC_arg1, keepC_v17, keepB_arg1, readB, keepA_arg1, readA]
  rfl

theorem after_v20 (V : Valuation τ sig (Elt Ideal)) :
    after ops V (Proc.devRef .tc main_v20) = mean20 (V (Proc.devRef .tc main_arg0)) := by
  rw [after_ops, keepG_v20, keepF_v20, keepD_v20, readC, readB, readA]
  rfl

theorem after_arg0 (V : Valuation τ sig (Elt Ideal)) : after ops V (Proc.devRef .tc main_arg0) = V (Proc.devRef .tc main_arg0) := by
  rw [after_ops, keepG_arg0, keepF_arg0, keepD_arg0, keepC_arg0, keepB_arg0, keepA_arg0]

theorem after_arg1 (V : Valuation τ sig (Elt Ideal)) : after ops V (Proc.devRef .tc main_arg1) = V (Proc.devRef .tc main_arg1) := by
  rw [after_ops, keepG_arg1, keepF_arg1, keepD_arg1, keepC_arg1, keepB_arg1, keepA_arg1]

/-- Every weakly fair execution of the reference terminates with its two results at `lossAll` and `meanAll` of the launch
    arrays, and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36) = lossAll (m ((c.tc : Thread nD τ).loc main_arg0)) (m ((c.tc : Thread nD τ).loc main_arg1))
      ∧ r.2.mem ((c.tc : Thread nD τ).loc main_v20) = meanAll (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c main_v36).trans ((after_v36 _).trans (loss36_eq _ _)),
     (h c main_v20).trans ((after_v20 _).trans (mean20_eq _)),
     (h c main_arg0).trans (after_arg0 _),
     (h c main_arg1).trans (after_arg1 _)⟩)
    (run_after m ρ)

end Cert.ReferenceIdeal.HandValue

end
-- ==== Proof.lean ====
/-
  The triplet loss of 62 parts, kernel against reference, on the extended reals.

  Both programs compute, for every part `n` of a feature array `[62, 512, 256]` with labels `[62, 512]`, two numbers: the
  mean over the part's samples of the hinge `max (0.2 + hardest positive - hardest negative) 0`, and the mean of all the
  pairwise distances of the part's samples (`lossAll`, `meanAll`: Proof/TripletSpec.lean). The kernel takes the parts two
  at a time on a grid of 31 points; the reference takes all 62 at once on the host.

  The two programs differ in four places, none of which changes the value on the extended reals:
  * the kernel rounds the features to bf16 before its matrix product — a change of float format is the identity here,
    and a matrix product into a zero accumulator and the host's `dot_general` are the same finite sum;
  * the reference clamps the squared distance at zero before "the root where positive, else zero"; the clamp changes
    nothing under that guard (`rootPos_max`);
  * the kernel sums the distances over columns and then over rows, the reference over both axes at once — one sum;
  * the host's sums start from a constant zero, which adds nothing.
  No law used needs a finite operand, so the precondition is never opened.

  The kernel's run (Proof/KernelRun.lean) is read off its generated frame: what each grid point stores (Proof/KernelPay.lean),
  that the 31 blocks cover the output arrays (Proof/KernelArr.lean), and the re-layouts around the region. The reference's run
  is Proof/RefRun.lean (termination, and each buffer after the operations) and Proof/RefValue.lean (the values). The frames of the two kernel programs are the generated
  ones; the reference's frame is its run with the results dropped; the one recorded rewrite of the idealization is the
  removed bf16 round trip, whose statement is the rule's own lemma.
-/
import proofs.«148909_j13563506720994_2_alg».proof.Defs
import proofs.«148909_j13563506720994_2_alg».proof.Proof.Gen.Kernel
import proofs.«148909_j13563506720994_2_alg».proof.Proof.Gen.Kernel.Skeleton
import proofs.«148909_j13563506720994_2_alg».proof.Proof.Gen.Kernel.Launch
import proofs.«148909_j13563506720994_2_alg».proof.Proof.Gen.Kernel.Points
import proofs.«148909_j13563506720994_2_alg».proof.Proof.Gen.Kernel.Frame
import proofs.«148909_j13563506720994_2_alg».proof.Proof.Gen.KernelIdeal
import proofs.«148909_j13563506720994_2_alg».proof.Proof.Gen.KernelIdeal.Skeleton
import proofs.«148909_j13563506720994_2_alg».proof.Proof.Gen.KernelIdeal.Launch
import proofs.«148909_j13563506720994_2_alg».proof.Proof.Gen.KernelIdeal.Points
import proofs.«148909_j13563506720994_2_alg».proof.Proof.Gen.KernelIdeal.Frame
import proofs.«148909_j13563506720994_2_alg».proof.Proof.Gen.ReferenceIdeal
import proofs.«148909_j13563506720994_2_alg».proof.Proof.Gen.Pre_finite_inputs
import proofs.«148909_j13563506720994_2_alg».proof.Proof.KernelRun
import proofs.«148909_j13563506720994_2_alg».proof.Proof.RefValue
import Idealize.ShloMosaic.Adequacy
import Idealize.ShloMosaic.Init

noncomputable section

namespace Cert.Proof

open Idealize.ShloMosaic Idealize.ShloMosaic.TcCoe Idealize.SL.Sem Cert.Triplet

/-- The word-level kernel program runs and keeps its arguments: the generated frame. -/
theorem frame_kernel : Cert.frame_Kernel := fun m ρ _ => Cert.Kernel.Gen.frame m ρ

/-- The idealized kernel program runs and keeps its arguments: the generated frame. -/
theorem frame_kernelIdeal : Cert.frame_KernelIdeal := fun m ρ _ => Cert.KernelIdeal.Gen.frame m ρ

/-- The reference runs and keeps its arguments: its run, with the results dropped. -/
theorem frame_reference : Cert.frame_ReferenceIdeal := fun m ρ _ =>
  (θ_run Cert.ReferenceIdeal.defs _ _).mono (fun _ h c => (h c).2.2) (Cert.ReferenceIdeal.HandValue.run m ρ)

/-- The idealization's one rewrite, widening a value just narrowed to bf16, is the identity on the extended reals. -/
theorem preserves : Cert.preserves_Kernel_KernelIdeal := IdealRules.truncf_extf.statement _ .f32 .bf16

/-- From memories that agree on the arguments both programs end with each part's mean hinge and mean distance of the
    same arrays. -/
theorem algebraic : Cert.algebraic_KernelIdeal_ReferenceIdeal := by
  intro m ρ m' ρ' _ hagree
  refine ⟨fun c => lossAll (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => meanAll (m ((c.tc : Thread Cert.KernelIdeal.nD Cert.KernelIdeal.τ).loc Cert.KernelIdeal.main_arg0)),
    Cert.KernelIdeal.HandRun.run m ρ, ?_⟩
  refine (θ_run Cert.ReferenceIdeal.defs _ _).mono (fun _ h c => ?_) (Cert.ReferenceIdeal.HandValue.run m' ρ')
  obtain ⟨h1, h2, h3, h4⟩ := h c
  refine ⟨h1.trans ?_, h2.trans ?_, h3, h4⟩
  · rw [(hagree c).1, (hagree c).2]
  · rw [(hagree c).1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
